-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1280x512 : Shape := ⟨2, ![1280, 512]⟩
abbrev S16384x2 : Shape := ⟨2, ![16384, 2]⟩
abbrev S1280 : Shape := ⟨1, ![1280]⟩
abbrev S16384x4096 : Shape := ⟨2, ![16384, 4096]⟩
abbrev S1024x512 : Shape := ⟨2, ![1024, 512]⟩
abbrev S1024 : Shape := ⟨1, ![1024]⟩
abbrev S4096x1024 : Shape := ⟨2, ![4096, 1024]⟩
abbrev S4096 : Shape := ⟨1, ![4096]⟩
abbrev S51x4096 : Shape := ⟨2, ![51, 4096]⟩
abbrev S51 : Shape := ⟨1, ![51]⟩
abbrev S51x1024 : Shape := ⟨2, ![51, 1024]⟩
abbrev S22801x51 : Shape := ⟨2, ![22801, 51]⟩
abbrev S_ : Shape := ⟨0, ![]⟩

class Facts : Prop where
  bcast_S_S1280x512 : S_.BroadcastsInDim S1280x512 (![] : Fin 0 → Fin S1280x512.rank)
  reducesTo_S1280x512_S_d0_1 : S1280x512.ReducesTo [0, 1] S_
  h_S_ : 0 < S_.numel
  bcast_S_S16384x4096 : S_.BroadcastsInDim S16384x4096 (![] : Fin 0 → Fin S16384x4096.rank)
  reducesTo_S16384x4096_S_d0_1 : S16384x4096.ReducesTo [0, 1] S_
  bcast_S_S1024x512 : S_.BroadcastsInDim S1024x512 (![] : Fin 0 → Fin S1024x512.rank)
  reducesTo_S1024x512_S_d0_1 : S1024x512.ReducesTo [0, 1] S_
  bcast_S_S1024 : S_.BroadcastsInDim S1024 (![] : Fin 0 → Fin S1024.rank)
  reducesTo_S1024_S_d0 : S1024.ReducesTo [0] S_
  bcast_S_S4096x1024 : S_.BroadcastsInDim S4096x1024 (![] : Fin 0 → Fin S4096x1024.rank)
  reducesTo_S4096x1024_S_d0_1 : S4096x1024.ReducesTo [0, 1] S_
  bcast_S_S4096 : S_.BroadcastsInDim S4096 (![] : Fin 0 → Fin S4096.rank)
  reducesTo_S4096_S_d0 : S4096.ReducesTo [0] S_
  bcast_S_S51x4096 : S_.BroadcastsInDim S51x4096 (![] : Fin 0 → Fin S51x4096.rank)
  reducesTo_S51x4096_S_d0_1 : S51x4096.ReducesTo [0, 1] S_
  bcast_S_S51 : S_.BroadcastsInDim S51 (![] : Fin 0 → Fin S51.rank)
  reducesTo_S51_S_d0 : S51.ReducesTo [0] S_
  bcast_S_S51x1024 : S_.BroadcastsInDim S51x1024 (![] : Fin 0 → Fin S51x1024.rank)
  reducesTo_S51x1024_S_d0_1 : S51x1024.ReducesTo [0, 1] S_
  bcast_S_S22801x51 : S_.BroadcastsInDim S22801x51 (![] : Fin 0 → Fin S22801x51.rank)
  reducesTo_S22801x51_S_d0_1 : S22801x51.ReducesTo [0, 1] S_

variable [Facts]

def fn_part3 {F : FTy → Type} [FloatOps F] (main_v48 : IVec S_ 1) (main_v49 : FVec F S22801x51 .f32) (main_v50 : FVec F S22801x51 .f32) : IVec S_ 1 :=
  let main_v51 : IVec S22801x51 1 := cmpf .olt main_v49 main_v50
  let main_c_19 : IVec S_ 1 := constantI S_ 1 1#1
  let main_v52 : IVec S_ 1 := (fun x v => Host.reduce IntOp.andi x v reducesTo_S22801x51_S_d0_1 h_S_) main_v51 main_c_19
  let main_v53 : IVec S_ 1 := andi main_v48 main_v52
  main_v53

def fn_part2 {F : FTy → Type} [FloatOps F] (main_arg9 : FVec F S51 .f32) (main_arg10 : FVec F S51x1024 .f32) (main_arg11 : FVec F S51 .f32) (main_arg12 : FVec F S22801x51 .f32) (main_v33 : IVec S_ 1) : IVec S_ 1 :=
  let main_v34 : FVec F S51 .f32 := Host.absf main_arg9
  let main_cst_12 : FVec F S_ .f32 := constant S_ .f32 0x7F800000#32
  let main_v35 : FVec F S51 .f32 := broadcastInDim S51 ![] bcast_S_S51 main_cst_12
  let main_v36 : IVec S51 1 := cmpf .olt main_v34 main_v35
  let main_c_13 : IVec S_ 1 := constantI S_ 1 1#1
  let main_v37 : IVec S_ 1 := (fun x v => Host.reduce IntOp.andi x v reducesTo_S51_S_d0 h_S_) main_v36 main_c_13
  let main_v38 : IVec S_ 1 := andi main_v33 main_v37
  let main_v39 : FVec F S51x1024 .f32 := Host.absf main_arg10
  let main_cst_14 : FVec F S_ .f32 := constant S_ .f32 0x7F800000#32
  let main_v40 : FVec F S51x1024 .f32 := broadcastInDim S51x1024 ![] bcast_S_S51x1024 main_cst_14
  let main_v41 : IVec S51x1024 1 := cmpf .olt main_v39 main_v40
  let main_c_15 : IVec S_ 1 := constantI S_ 1 1#1
  let main_v42 : IVec S_ 1 := (fun x v => Host.reduce IntOp.andi x v reducesTo_S51x1024_S_d0_1 h_S_) main_v41 main_c_15
  let main_v43 : IVec S_ 1 := andi main_v38 main_v42
  let main_v44 : FVec F S51 .f32 := Host.absf main_arg11
  let main_cst_16 : FVec F S_ .f32 := constant S_ .f32 0x7F800000#32
  let main_v45 : FVec F S51 .f32 := broadcastInDim S51 ![] bcast_S_S51 main_cst_16
  let main_v46 : IVec S51 1 := cmpf .olt main_v44 main_v45
  let main_c_17 : IVec S_ 1 := constantI S_ 1 1#1
  let main_v47 : IVec S_ 1 := (fun x v => Host.reduce IntOp.andi x v reducesTo_S51_S_d0 h_S_) main_v46 main_c_17
  let main_v48 : IVec S_ 1 := andi main_v43 main_v47
  let main_v49 : FVec F S22801x51 .f32 := Host.absf main_arg12
  let main_cst_18 : FVec F S_ .f32 := constant S_ .f32 0x7F800000#32
  let main_v50 : FVec F S22801x51 .f32 := broadcastInDim S22801x51 ![] bcast_S_S22801x51 main_cst_18
  fn_part3 (F := F) main_v48 main_v49 main_v50

def fn_part1 {F : FTy → Type} [FloatOps F] (main_arg6 : FVec F S4096x1024 .f32) (main_arg7 : FVec F S4096 .f32) (main_arg8 : FVec F S51x4096 .f32) (main_arg9 : FVec F S51 .f32) (main_arg10 : FVec F S51x1024 .f32) (main_arg11 : FVec F S51 .f32) (main_arg12 : FVec F S22801x51 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S4096x1024 .f32 := Host.absf main_arg6
  let main_cst_6 : FVec F S_ .f32 := constant S_ .f32 0x7F800000#32
  let main_v20 : FVec F S4096x1024 .f32 := broadcastInDim S4096x1024 ![] bcast_S_S4096x1024 main_cst_6
  let main_v21 : IVec S4096x1024 1 := cmpf .olt main_v19 main_v20
  let main_c_7 : IVec S_ 1 := constantI S_ 1 1#1
  let main_v22 : IVec S_ 1 := (fun x v => Host.reduce IntOp.andi x v reducesTo_S4096x1024_S_d0_1 h_S_) main_v21 main_c_7
  let main_v23 : IVec S_ 1 := andi main_v18 main_v22
  let main_v24 : FVec F S4096 .f32 := Host.absf main_arg7
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  let main_v29 : FVec F S51x4096 .f32 := Host.absf main_arg8
  let main_cst_10 : FVec F S_ .f32 := constant S_ .f32 0x7F800000#32
  let main_v30 : FVec F S51x4096 .f32 := broadcastInDim S51x4096 ![] bcast_S_S51x4096 main_cst_10
  let main_v31 : IVec S51x4096 1 := cmpf .olt main_v29 main_v30
  let main_c_11 : IVec S_ 1 := constantI S_ 1 1#1
  let main_v32 : IVec S_ 1 := (fun x v => Host.reduce IntOp.andi x v reducesTo_S51x4096_S_d0_1 h_S_) main_v31 main_c_11
  let main_v33 : IVec S_ 1 := andi main_v28 main_v32
  fn_part2 (F := F) main_arg9 main_arg10 main_arg11 main_arg12 main_v33

def fn {F : FTy → Type} [FloatOps F] (main_arg0 : FVec F S1280x512 .f32) (main_arg1 : IVec S16384x2 32) (main_arg2 : IVec S1280 32) (main_arg3 : FVec F S16384x4096 .f32) (main_arg4 : FVec F S1024x512 .f32) (main_arg5 : FVec F S1024 .f32) (main_arg6 : FVec F S4096x1024 .f32) (main_arg7 : FVec F S4096 .f32) (main_arg8 : FVec F S51x4096 .f32) (main_arg9 : FVec F S51 .f32) (main_arg10 : FVec F S51x1024 .f32) (main_arg11 : FVec F S51 .f32) (main_arg12 : FVec F S22801x51 .f32) : IVec S_ 1 :=
  let main_v0 : FVec F S1280x512 .f32 := Host.absf main_arg0
  let main_cst : FVec F S_ .f32 := constant S_ .f32 0x7F800000#32
  let main_v1 : FVec F S1280x512 .f32 := broadcastInDim S1280x512 ![] bcast_S_S1280x512 main_cst
  let main_v2 : IVec S1280x512 1 := cmpf .olt main_v0 main_v1
  let main_c : IVec S_ 1 := constantI S_ 1 1#1
  let main_v3 : IVec S_ 1 := (fun x v => Host.reduce IntOp.andi x v reducesTo_S1280x512_S_d0_1 h_S_) main_v2 main_c
  let main_v4 : FVec F S16384x4096 .f32 := Host.absf main_arg3
  let main_cst_0 : FVec F S_ .f32 := constant S_ .f32 0x7F800000#32
  let main_v5 : FVec F S16384x4096 .f32 := broadcastInDim S16384x4096 ![] bcast_S_S16384x4096 main_cst_0
  let main_v6 : IVec S16384x4096 1 := cmpf .olt main_v4 main_v5
  let main_c_1 : IVec S_ 1 := constantI S_ 1 1#1
  let main_v7 : IVec S_ 1 := (fun x v => Host.reduce IntOp.andi x v reducesTo_S16384x4096_S_d0_1 h_S_) main_v6 main_c_1
  let main_v8 : IVec S_ 1 := andi main_v3 main_v7
  let main_v9 : FVec F S1024x512 .f32 := Host.absf main_arg4
  let main_cst_2 : FVec F S_ .f32 := constant S_ .f32 0x7F800000#32
  let main_v10 : FVec F S1024x512 .f32 := broadcastInDim S1024x512 ![] bcast_S_S1024x512 main_cst_2
  let main_v11 : IVec S1024x512 1 := cmpf .olt main_v9 main_v10
  let main_c_3 : IVec S_ 1 := constantI S_ 1 1#1
  let main_v12 : IVec S_ 1 := (fun x v => Host.reduce IntOp.andi x v reducesTo_S1024x512_S_d0_1 h_S_) main_v11 main_c_3
  let main_v13 : IVec S_ 1 := andi main_v8 main_v12
  let main_v14 : FVec F S1024 .f32 := Host.absf main_arg5
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg6 main_arg7 main_arg8 main_arg9 main_arg10 main_arg11 main_arg12 main_v13 main_v16
-- ==== Kernel.lean ====
abbrev S1280x512 : Shape := ⟨2, ![1280, 512]⟩
abbrev S16384x2 : Shape := ⟨2, ![16384, 2]⟩
abbrev S1280 : Shape := ⟨1, ![1280]⟩
abbrev S16384x4096 : Shape := ⟨2, ![16384, 4096]⟩
abbrev S1024x512 : Shape := ⟨2, ![1024, 512]⟩
abbrev S1024 : Shape := ⟨1, ![1024]⟩
abbrev S4096x1024 : Shape := ⟨2, ![4096, 1024]⟩
abbrev S4096 : Shape := ⟨1, ![4096]⟩
abbrev S51x4096 : Shape := ⟨2, ![51, 4096]⟩
abbrev S51 : Shape := ⟨1, ![51]⟩
abbrev S51x1024 : Shape := ⟨2, ![51, 1024]⟩
abbrev S22801x51 : Shape := ⟨2, ![22801, 51]⟩
abbrev S512x1024 : Shape := ⟨2, ![512, 1024]⟩
abbrev S1280x1024 : Shape := ⟨2, ![1280, 1024]⟩
abbrev S1x1024 : Shape := ⟨2, ![1, 1024]⟩
abbrev S16384x1 : Shape := ⟨2, ![16384, 1]⟩
abbrev S16384 : Shape := ⟨1, ![16384]⟩
abbrev S_ : Shape := ⟨0, ![]⟩
abbrev S16384x512 : Shape := ⟨2, ![16384, 512]⟩
abbrev S16384x1024 : Shape := ⟨2, ![16384, 1024]⟩
abbrev S16384x2x1 : Shape := ⟨3, ![16384, 2, 1]⟩
abbrev S16384x51 : Shape := ⟨2, ![16384, 51]⟩
abbrev S16384x128 : Shape := ⟨2, ![16384, 128]⟩
abbrev S1024x4096 : Shape := ⟨2, ![1024, 4096]⟩
abbrev S4096x51 : Shape := ⟨2, ![4096, 51]⟩
abbrev S4096x128 : Shape := ⟨2, ![4096, 128]⟩
abbrev S1024x51 : Shape := ⟨2, ![1024, 51]⟩
abbrev S1024x128 : Shape := ⟨2, ![1024, 128]⟩
abbrev S1x4096 : Shape := ⟨2, ![1, 4096]⟩
abbrev S128 : Shape := ⟨1, ![128]⟩
abbrev S1x128 : Shape := ⟨2, ![1, 128]⟩
abbrev S256x1024 : Shape := ⟨2, ![256, 1024]⟩
abbrev S256x4096 : Shape := ⟨2, ![256, 4096]⟩
abbrev S256x128 : Shape := ⟨2, ![256, 128]⟩

abbrev nBuf : Space → Nat
  | .hbm => 95
  | .vmem => 14
  | .smem => 0
  | _ => 0

abbrev bufTy : (tb : Table) → Fin (tcTables nBuf tb) → BufTy
  | .hbm, ⟨0, _⟩ => ⟨S1280x512, .f32⟩
  | .hbm, ⟨1, _⟩ => ⟨S16384x2, .i32⟩
  | .hbm, ⟨2, _⟩ => ⟨S1280, .i32⟩
  | .hbm, ⟨3, _⟩ => ⟨S16384x4096, .f32⟩
  | .hbm, ⟨4, _⟩ => ⟨S1024x512, .f32⟩
  | .hbm, ⟨5, _⟩ => ⟨S1024, .f32⟩
  | .hbm, ⟨6, _⟩ => ⟨S4096x1024, .f32⟩
  | .hbm, ⟨7, _⟩ => ⟨S4096, .f32⟩
  | .hbm, ⟨8, _⟩ => ⟨S51x4096, .f32⟩
  | .hbm, ⟨9, _⟩ => ⟨S51, .f32⟩
  | .hbm, ⟨10, _⟩ => ⟨S51x1024, .f32⟩
  | .hbm, ⟨11, _⟩ => ⟨S51, .f32⟩
  | .hbm, ⟨12, _⟩ => ⟨S22801x51, .f32⟩
  | .hbm, ⟨13, _⟩ => ⟨S512x1024, .f32⟩
  | .hbm, ⟨14, _⟩ => ⟨S1280x1024, .f32⟩
  | .hbm, ⟨15, _⟩ => ⟨S1x1024, .f32⟩
  | .hbm, ⟨16, _⟩ => ⟨S1280x1024, .f32⟩
  | .hbm, ⟨17, _⟩ => ⟨S1280x1024, .f32⟩
  | .hbm, ⟨18, _⟩ => ⟨S1280x512, .f32⟩
  | .hbm, ⟨19, _⟩ => ⟨S1280x512, .f32⟩
  | .hbm, ⟨20, _⟩ => ⟨S16384x1, .i32⟩
  | .hbm, ⟨21, _⟩ => ⟨S16384, .i32⟩
  | .hbm, ⟨22, _⟩ => ⟨S16384x1, .i32⟩
  | .hbm, ⟨23, _⟩ => ⟨S16384, .i32⟩
  | .hbm, ⟨24, _⟩ => ⟨S_, .i32⟩
  | .hbm, ⟨25, _⟩ => ⟨S16384, .i32⟩
  | .hbm, ⟨26, _⟩ => ⟨S16384, .i1⟩
  | .hbm, ⟨27, _⟩ => ⟨S_, .i32⟩
  | .hbm, ⟨28, _⟩ => ⟨S16384, .i32⟩
  | .hbm, ⟨29, _⟩ => ⟨S16384, .i32⟩
  | .hbm, ⟨30, _⟩ => ⟨S16384, .i32⟩
  | .hbm, ⟨31, _⟩ => ⟨S16384x1, .i32⟩
  | .hbm, ⟨32, _⟩ => ⟨S16384x512, .f32⟩
  | .hbm, ⟨33, _⟩ => ⟨S_, .i32⟩
  | .hbm, ⟨34, _⟩ => ⟨S16384, .i32⟩
  | .hbm, ⟨35, _⟩ => ⟨S16384, .i1⟩
  | .hbm, ⟨36, _⟩ => ⟨S_, .i32⟩
  | .hbm, ⟨37, _⟩ => ⟨S16384, .i32⟩
  | .hbm, ⟨38, _⟩ => ⟨S16384, .i32⟩
  | .hbm, ⟨39, _⟩ => ⟨S16384, .i32⟩
  | .hbm, ⟨40, _⟩ => ⟨S16384x1, .i32⟩
  | .hbm, ⟨41, _⟩ => ⟨S16384x512, .f32⟩
  | .hbm, ⟨42, _⟩ => ⟨S16384x1024, .f32⟩
  | .hbm, ⟨43, _⟩ => ⟨S_, .i32⟩
  | .hbm, ⟨44, _⟩ => ⟨S16384x2, .i32⟩
  | .hbm, ⟨45, _⟩ => ⟨S16384x2, .i1⟩
  | .hbm, ⟨46, _⟩ => ⟨S_, .i32⟩
  | .hbm, ⟨47, _⟩ => ⟨S16384x2, .i32⟩
  | .hbm, ⟨48, _⟩ => ⟨S16384x2, .i32⟩
  | .hbm, ⟨49, _⟩ => ⟨S16384x2, .i32⟩
  | .hbm, ⟨50, _⟩ => ⟨S16384x2x1, .i32⟩
  | .hbm, ⟨51, _⟩ => ⟨S16384x2, .i32⟩
  | .hbm, ⟨52, _⟩ => ⟨S16384x1, .i32⟩
  | .hbm, ⟨53, _⟩ => ⟨S16384, .i32⟩
  | .hbm, ⟨54, _⟩ => ⟨S_, .i32⟩
  | .hbm, ⟨55, _⟩ => ⟨S16384, .i32⟩
  | .hbm, ⟨56, _⟩ => ⟨S16384, .i32⟩
  | .hbm, ⟨57, _⟩ => ⟨S16384x1, .i32⟩
  | .hbm, ⟨58, _⟩ => ⟨S16384, .i32⟩
  | .hbm, ⟨59, _⟩ => ⟨S16384, .i32⟩
  | .hbm, ⟨60, _⟩ => ⟨S_, .i32⟩
  | .hbm, ⟨61, _⟩ => ⟨S16384, .i32⟩
  | .hbm, ⟨62, _⟩ => ⟨S16384, .i1⟩
  | .hbm, ⟨63, _⟩ => ⟨S_, .i32⟩
  | .hbm, ⟨64, _⟩ => ⟨S16384, .i32⟩
  | .hbm, ⟨65, _⟩ => ⟨S16384, .i32⟩
  | .hbm, ⟨66, _⟩ => ⟨S16384, .i32⟩
  | .hbm, ⟨67, _⟩ => ⟨S16384x1, .i32⟩
  | .hbm, ⟨68, _⟩ => ⟨S16384x51, .f32⟩
  | .hbm, ⟨69, _⟩ => ⟨S_, .i32⟩
  | .hbm, ⟨70, _⟩ => ⟨S_, .f32⟩
  | .hbm, ⟨71, _⟩ => ⟨S16384x128, .f32⟩
  | .hbm, ⟨72, _⟩ => ⟨S1024x4096, .f32⟩
  | .hbm, ⟨73, _⟩ => ⟨S1024x4096, .bf16⟩
  | .hbm, ⟨74, _⟩ => ⟨S4096x51, .f32⟩
  | .hbm, ⟨75, _⟩ => ⟨S_, .i32⟩
  | .hbm, ⟨76, _⟩ => ⟨S_, .f32⟩
  | .hbm, ⟨77, _⟩ => ⟨S4096x128, .f32⟩
  | .hbm, ⟨78, _⟩ => ⟨S4096x128, .bf16⟩
  | .hbm, ⟨79, _⟩ => ⟨S1024x51, .f32⟩
  | .hbm, ⟨80, _⟩ => ⟨S_, .i32⟩
  | .hbm, ⟨81, _⟩ => ⟨S_, .f32⟩
  | .hbm, ⟨82, _⟩ => ⟨S1024x128, .f32⟩
  | .hbm, ⟨83, _⟩ => ⟨S1024x128, .bf16⟩
  | .hbm, ⟨84, _⟩ => ⟨S1x4096, .f32⟩
  | .hbm, ⟨85, _⟩ => ⟨S_, .i32⟩
  | .hbm, ⟨86, _⟩ => ⟨S_, .f32⟩
  | .hbm, ⟨87, _⟩ => ⟨S128, .f32⟩
  | .hbm, ⟨88, _⟩ => ⟨S1x128, .f32⟩
  | .hbm, ⟨89, _⟩ => ⟨S_, .i32⟩
  | .hbm, ⟨90, _⟩ => ⟨S_, .f32⟩
  | .hbm, ⟨91, _⟩ => ⟨S128, .f32⟩
  | .hbm, ⟨92, _⟩ => ⟨S1x128, .f32⟩
  | .hbm, ⟨93, _⟩ => ⟨S16384x128, .f32⟩
  | .hbm, ⟨94, _⟩ => ⟨S16384x51, .f32⟩
  | .local _ .vmem, ⟨0, _⟩ => ⟨S256x1024, .f32⟩
  | .local _ .vmem, ⟨1, _⟩ => ⟨S256x1024, .f32⟩
  | .local _ .vmem, ⟨2, _⟩ => ⟨S256x4096, .f32⟩
  | .local _ .vmem, ⟨3, _⟩ => ⟨S256x4096, .f32⟩
  | .local _ .vmem, ⟨4, _⟩ => ⟨S256x128, .f32⟩
  | .local _ .vmem, ⟨5, _⟩ => ⟨S256x128, .f32⟩
  | .local _ .vmem, ⟨6, _⟩ => ⟨S1024x4096, .bf16⟩
  | .local _ .vmem, ⟨7, _⟩ => ⟨S1x4096, .f32⟩
  | .local _ .vmem, ⟨8, _⟩ => ⟨S4096x128, .bf16⟩
  | .local _ .vmem, ⟨9, _⟩ => ⟨S1x128, .f32⟩
  | .local _ .vmem, ⟨10, _⟩ => ⟨S1024x128, .bf16⟩
  | .local _ .vmem, ⟨11, _⟩ => ⟨S1x128, .f32⟩
  | .local _ .vmem, ⟨12, _⟩ => ⟨S256x128, .f32⟩
  | .local _ .vmem, ⟨13, _⟩ => ⟨S256x128, .f32⟩
  | _, _ => ⟨S1280x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c : Ref sig .tc := ⟨.hbm, 24, rfl⟩
abbrev main_v11 : Ref sig .tc := ⟨.hbm, 25, rfl⟩
abbrev main_v12 : Ref sig .tc := ⟨.hbm, 26, rfl⟩
abbrev main_c_0 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c_1 : Ref sig .tc := ⟨.hbm, 33, rfl⟩
abbrev main_v18 : Ref sig .tc := ⟨.hbm, 34, rfl⟩
abbrev main_v19 : Ref sig .tc := ⟨.hbm, 35, rfl⟩
abbrev main_c_2 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_c_3 : Ref sig .tc := ⟨.hbm, 43, rfl⟩
abbrev main_v26 : Ref sig .tc := ⟨.hbm, 44, rfl⟩
abbrev main_v27 : Ref sig .tc := ⟨.hbm, 45, rfl⟩
abbrev main_c_4 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_c_5 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_c_6 : Ref sig .tc := ⟨.hbm, 60, rfl⟩
abbrev main_v40 : Ref sig .tc := ⟨.hbm, 61, rfl⟩
abbrev main_v41 : Ref sig .tc := ⟨.hbm, 62, rfl⟩
abbrev main_c_7 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_c_8 : Ref sig .tc := ⟨.hbm, 69, rfl⟩
abbrev main_call0_v0 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_c_9 : Ref sig .tc := ⟨.hbm, 75, rfl⟩
abbrev main_call1_v0 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_c_10 : Ref sig .tc := ⟨.hbm, 80, rfl⟩
abbrev main_call2_v0 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_c_11 : Ref sig .tc := ⟨.hbm, 85, rfl⟩
abbrev main_call3_v0 : Ref sig .tc := ⟨.hbm, 86, rfl⟩
abbrev main_v57 : Ref sig .tc := ⟨.hbm, 87, rfl⟩
abbrev main_v58 : Ref sig .tc := ⟨.hbm, 88, rfl⟩
abbrev main_c_12 : Ref sig .tc := ⟨.hbm, 89, rfl⟩
abbrev main_call4_v0 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  transposes_S1024x512_S512x1024_1_0 : S1024x512.Transposes [1, 0] S512x1024
  bcast_S1024_S1x1024_1 : S1024.BroadcastsInDim S1x1024 (![1] : Fin 1 → Fin S1x1024.rank)
  bcast_S1x1024_S1280x1024_0_1 : S1x1024.BroadcastsInDim S1280x1024 (![0, 1] : Fin 2 → Fin S1280x1024.rank)
  slices_S1280x1024_S1280x512_0_0 : S1280x1024.Slices ![0, 0] S1280x512
  slices_S1280x1024_S1280x512_0_512 : S1280x1024.Slices ![0, 512] S1280x512
  slices_S16384x2_S16384x1_0_0 : S16384x2.Slices ![0, 0] S16384x1
  shapeCasts_S16384x1_S16384 : S16384x1.ShapeCasts S16384
  slices_S16384x2_S16384x1_0_1 : S16384x2.Slices ![0, 1] S16384x1
  bcast_S_S16384 : S_.BroadcastsInDim S16384 (![] : Fin 0 → Fin S16384.rank)
  bcast_S16384_S16384x1_0 : S16384.BroadcastsInDim S16384x1 (![0] : Fin 1 → Fin S16384x1.rank)
  concatenates_S16384x512_S16384x512_S16384x1024_d1 : Shape.Concatenates [S16384x512, S16384x512] S16384x1024 1
  bcast_S_S16384x2 : S_.BroadcastsInDim S16384x2 (![] : Fin 0 → Fin S16384x2.rank)
  bcast_S16384x2_S16384x2x1_0_1 : S16384x2.BroadcastsInDim S16384x2x1 (![0, 1] : Fin 2 → Fin S16384x2x1.rank)
  pads_S16384x51_S16384x128_000_0770 : S16384x51.Pads (![0, 0] : Fin 2 → Nat) ![0, 77] ![0, 0] S16384x128
  h_S_ : 0 < S_.numel
  transposes_S4096x1024_S1024x4096_1_0 : S4096x1024.Transposes [1, 0] S1024x4096
  bitsLt_bf16_f32 : FTy.bits .bf16 < FTy.bits .f32
  transposes_S51x4096_S4096x51_1_0 : S51x4096.Transposes [1, 0] S4096x51
  pads_S4096x51_S4096x128_000_0770 : S4096x51.Pads (![0, 0] : Fin 2 → Nat) ![0, 77] ![0, 0] S4096x128
  transposes_S51x1024_S1024x51_1_0 : S51x1024.Transposes [1, 0] S1024x51
  pads_S1024x51_S1024x128_000_0770 : S1024x51.Pads (![0, 0] : Fin 2 → Nat) ![0, 77] ![0, 0] S1024x128
  shapeCasts_S4096_S1x4096 : S4096.ShapeCasts S1x4096
  pads_S51_S128_0770 : S51.Pads (![0] : Fin 1 → Nat) ![77] ![0] S128
  shapeCasts_S128_S1x128 : S128.ShapeCasts S1x128
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  inb_S256x4096_S256x4096_0_0 : ∀ a, (![0, 0] : Fin 2 → Nat) a + S256x4096.size a ≤ S256x4096.size a
  h_S256x4096 : 0 < S256x4096.numel
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S256x128 : S1x128.Broadcasts S256x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S256x128_S256x128_0_0 : ∀ a, (![0, 0] : Fin 2 → Nat) a + S256x128.size a ≤ S256x128.size a
  h_S256x128 : 0 < S256x128.numel
  shapeCasts_S256x128_S256x128 : S256x128.ShapeCasts S256x128
  slices_S16384x128_S16384x51_0_0 : S16384x128.Slices ![0, 0] S16384x51
  dot_S1280x512_S512x1024_S1280x1024_1_0_0_1_n_n_wf : DotDims.WF S1280x512 S512x1024 S1280x1024 [1] [0] [0] [1] [] []
  gather_S1280x512_S16384x1_S16384x512_1_0_n_n_0_1_1512_wf : GatherDims.WF S1280x512 S16384x1 S16384x512 [1] [0] [] [0] [] 1 ![1, 512]
  gather_S1280_S16384x2x1_S16384x2_n_0_n_n_0_2_1_wf : GatherDims.WF S1280 S16384x2x1 S16384x2 [] [0] [] [0] [] 2 ![1]
  gather_S22801x51_S16384x1_S16384x51_1_0_n_n_0_1_151_wf : GatherDims.WF S22801x51 S16384x1 S16384x51 [1] [0] [] [0] [] 1 ![1, 51]
  dot_S256x1024_S1024x4096_S256x4096_1_0_0_1_n_n_wf : DotDims.WF S256x1024 S1024x4096 S256x4096 [1] [0] [0] [1] [] []
  dot_S256x4096_S4096x128_S256x128_1_0_0_1_n_n_wf : DotDims.WF S256x4096 S4096x128 S256x128 [1] [0] [0] [1] [] []
  dot_S256x1024_S1024x128_S256x128_1_0_0_1_n_n_wf : DotDims.WF S256x1024 S1024x128 S256x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S16384x1024.size a
  hwx0_0 : ∀ i : grid0.Coords, EltTy.bits .f32 = 32 ∨ (Rect.block (s := S16384x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S16384x4096.size a
  hwx0_1 : ∀ i : grid0.Coords, EltTy.bits .f32 = 32 ∨ (Rect.block (s := S16384x4096) S256x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S16384x128.size a
  hwx0_2 : ∀ i : grid0.Coords, EltTy.bits .f32 = 32 ∨ (Rect.block (s := S16384x128) S256x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x4096.size a ≤ S1024x4096.size a
  hwx0_3 : ∀ i : grid0.Coords, EltTy.bits .bf16 = 32 ∨ (Rect.block (s := S1024x4096) S1024x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x4096.size a ≤ S1x4096.size a
  hwx0_4 : ∀ i : grid0.Coords, EltTy.bits .f32 = 32 ∨ (Rect.block (s := S1x4096) S1x4096.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4096x128.size a ≤ S4096x128.size a
  hwx0_5 : ∀ i : grid0.Coords, EltTy.bits .bf16 = 32 ∨ (Rect.block (s := S4096x128) S4096x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x128.size a ≤ S1024x128.size a
  hwx0_7 : ∀ i : grid0.Coords, EltTy.bits .bf16 = 32 ∨ (Rect.block (s := S1024x128) S1024x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S256x128.size a ≤ S16384x128.size a
  hwx0_9 : ∀ i : grid0.Coords, EltTy.bits .f32 = 32 ∨ (Rect.block (s := S16384x128) S256x128.size (cc0_transform_9 i) (hinb0_9 i)).WholeWords (EltTy.packing .f32)

variable [Facts₀]

def dot_S1280x512_S512x1024_S1280x1024_1_0_0_1_n_n : DotDims S1280x512 S512x1024 S1280x1024 where
  lhsContracting := [1]
  rhsContracting := [0]
  lhsNonContracting := [0]
  rhsNonContracting := [1]
  lhsBatch := []
  rhsBatch := []
  wf := dot_S1280x512_S512x1024_S1280x1024_1_0_0_1_n_n_wf
def gather_S1280x512_S16384x1_S16384x512_1_0_n_n_0_1_1512 : GatherDims S1280x512 S16384x1 S16384x512 where
  offsetDims := [1]
  collapsedSliceDims := [0]
  operandBatchingDims := []
  startIndicesBatchingDims := []
  startIndexMap := [0]
  indexVectorDim := 1
  sliceSizes := ![1, 512]
  wf := gather_S1280x512_S16384x1_S16384x512_1_0_n_n_0_1_1512_wf
def gather_S1280_S16384x2x1_S16384x2_n_0_n_n_0_2_1 : GatherDims S1280 S16384x2x1 S16384x2 where
  offsetDims := []
  collapsedSliceDims := [0]
  operandBatchingDims := []
  startIndicesBatchingDims := []
  startIndexMap := [0]
  indexVectorDim := 2
  sliceSizes := ![1]
  wf := gather_S1280_S16384x2x1_S16384x2_n_0_n_n_0_2_1_wf
def gather_S22801x51_S16384x1_S16384x51_1_0_n_n_0_1_151 : GatherDims S22801x51 S16384x1 S16384x51 where
  offsetDims := [1]
  collapsedSliceDims := [0]
  operandBatchingDims := []
  startIndicesBatchingDims := []
  startIndexMap := [0]
  indexVectorDim := 1
  sliceSizes := ![1, 51]
  wf := gather_S22801x51_S16384x1_S16384x51_1_0_n_n_0_1_151_wf
def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf
def dot_S256x4096_S4096x128_S256x128_1_0_0_1_n_n : DotDims S256x4096 S4096x128 S256x128 where
  lhsContracting := [1]
  rhsContracting := [0]
  lhsNonContracting := [0]
  rhsNonContracting := [1]
  lhsBatch := []
  rhsBatch := []
  wf := dot_S256x4096_S4096x128_S256x128_1_0_0_1_n_n_wf
def dot_S256x1024_S1024x128_S256x128_1_0_0_1_n_n : DotDims S256x1024 S1024x128 S256x128 where
  lhsContracting := [1]
  rhsContracting := [0]
  lhsNonContracting := [0]
  rhsNonContracting := [1]
  lhsBatch := []
  rhsBatch := []
  wf := dot_S256x1024_S1024x128_S256x128_1_0_0_1_n_n_wf

abbrev win0_0 : Pipeline.Window sig grid0 :=
  Pipeline.Window.ofSpec (Memref.whole main_v25) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v47) S256x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v49) S1024x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v56) S1x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v52) S4096x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v58) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v55) S1024x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v60) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v61) S256x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S1280x512 : Shape := ⟨2, ![1280, 512]⟩
abbrev S16384x2 : Shape := ⟨2, ![16384, 2]⟩
abbrev S1280 : Shape := ⟨1, ![1280]⟩
abbrev S16384x4096 : Shape := ⟨2, ![16384, 4096]⟩
abbrev S1024x512 : Shape := ⟨2, ![1024, 512]⟩
abbrev S1024 : Shape := ⟨1, ![1024]⟩
abbrev S4096x1024 : Shape := ⟨2, ![4096, 1024]⟩
abbrev S4096 : Shape := ⟨1, ![4096]⟩
abbrev S51x4096 : Shape := ⟨2, ![51, 4096]⟩
abbrev S51 : Shape := ⟨1, ![51]⟩
abbrev S51x1024 : Shape := ⟨2, ![51, 1024]⟩
abbrev S22801x51 : Shape := ⟨2, ![22801, 51]⟩
abbrev S512x1024 : Shape := ⟨2, ![512, 1024]⟩
abbrev S1280x1024 : Shape := ⟨2, ![1280, 1024]⟩
abbrev S1x1024 : Shape := ⟨2, ![1, 1024]⟩
abbrev S16384x1 : Shape := ⟨2, ![16384, 1]⟩
abbrev S16384 : Shape := ⟨1, ![16384]⟩
abbrev S_ : Shape := ⟨0, ![]⟩
abbrev S16384x512 : Shape := ⟨2, ![16384, 512]⟩
abbrev S16384x1024 : Shape := ⟨2, ![16384, 1024]⟩
abbrev S1024x4096 : Shape := ⟨2, ![1024, 4096]⟩
abbrev S1x4096 : Shape := ⟨2, ![1, 4096]⟩
abbrev S4096x51 : Shape := ⟨2, ![4096, 51]⟩
abbrev S16384x51 : Shape := ⟨2, ![16384, 51]⟩
abbrev S1x51 : Shape := ⟨2, ![1, 51]⟩
abbrev S1024x51 : Shape := ⟨2, ![1024, 51]⟩
abbrev S16384x2x1 : Shape := ⟨3, ![16384, 2, 1]⟩

abbrev nBuf : Space → Nat
  | .hbm => 87
  | .vmem => 0
  | .smem => 0
  | _ => 0

abbrev bufTy : (tb : Table) → Fin (tcTables nBuf tb) → BufTy
  | .hbm, ⟨0, _⟩ => ⟨S1280x512, .f32⟩
  | .hbm, ⟨1, _⟩ => ⟨S16384x2, .i32⟩
  | .hbm, ⟨2, _⟩ => ⟨S1280, .i32⟩
  | .hbm, ⟨3, _⟩ => ⟨S16384x4096, .f32⟩
  | .hbm, ⟨4, _⟩ => ⟨S1024x512, .f32⟩
  | .hbm, ⟨5, _⟩ => ⟨S1024, .f32⟩
  | .hbm, ⟨6, _⟩ => ⟨S4096x1024, .f32⟩
  | .hbm, ⟨7, _⟩ => ⟨S4096, .f32⟩
  | .hbm, ⟨8, _⟩ => ⟨S51x4096, .f32⟩
  | .hbm, ⟨9, _⟩ => ⟨S51, .f32⟩
  | .hbm, ⟨10, _⟩ => ⟨S51x1024, .f32⟩
  | .hbm, ⟨11, _⟩ => ⟨S51, .f32⟩
  | .hbm, ⟨12, _⟩ => ⟨S22801x51, .f32⟩
  | .hbm, ⟨13, _⟩ => ⟨S512x1024, .f32⟩
  | .hbm, ⟨14, _⟩ => ⟨S1280x1024, .f32⟩
  | .hbm, ⟨15, _⟩ => ⟨S1x1024, .f32⟩
  | .hbm, ⟨16, _⟩ => ⟨S1280x1024, .f32⟩
  | .hbm, ⟨17, _⟩ => ⟨S1280x1024, .f32⟩
  | .hbm, ⟨18, _⟩ => ⟨S1280x512, .f32⟩
  | .hbm, ⟨19, _⟩ => ⟨S1280x512, .f32⟩
  | .hbm, ⟨20, _⟩ => ⟨S16384x1, .i32⟩
  | .hbm, ⟨21, _⟩ => ⟨S16384, .i32⟩
  | .hbm, ⟨22, _⟩ => ⟨S_, .i32⟩
  | .hbm, ⟨23, _⟩ => ⟨S16384, .i32⟩
  | .hbm, ⟨24, _⟩ => ⟨S16384, .i1⟩
  | .hbm, ⟨25, _⟩ => ⟨S_, .i32⟩
  | .hbm, ⟨26, _⟩ => ⟨S16384, .i32⟩
  | .hbm, ⟨27, _⟩ => ⟨S16384, .i32⟩
  | .hbm, ⟨28, _⟩ => ⟨S16384, .i32⟩
  | .hbm, ⟨29, _⟩ => ⟨S16384x1, .i32⟩
  | .hbm, ⟨30, _⟩ => ⟨S16384x512, .f32⟩
  | .hbm, ⟨31, _⟩ => ⟨S16384x1, .i32⟩
  | .hbm, ⟨32, _⟩ => ⟨S16384, .i32⟩
  | .hbm, ⟨33, _⟩ => ⟨S_, .i32⟩
  | .hbm, ⟨34, _⟩ => ⟨S16384, .i32⟩
  | .hbm, ⟨35, _⟩ => ⟨S16384, .i1⟩
  | .hbm, ⟨36, _⟩ => ⟨S_, .i32⟩
  | .hbm, ⟨37, _⟩ => ⟨S16384, .i32⟩
  | .hbm, ⟨38, _⟩ => ⟨S16384, .i32⟩
  | .hbm, ⟨39, _⟩ => ⟨S16384, .i32⟩
  | .hbm, ⟨40, _⟩ => ⟨S16384x1, .i32⟩
  | .hbm, ⟨41, _⟩ => ⟨S16384x512, .f32⟩
  | .hbm, ⟨42, _⟩ => ⟨S16384x1024, .f32⟩
  | .hbm, ⟨43, _⟩ => ⟨S1024x4096, .f32⟩
  | .hbm, ⟨44, _⟩ => ⟨S16384x4096, .f32⟩
  | .hbm, ⟨45, _⟩ => ⟨S1x4096, .f32⟩
  | .hbm, ⟨46, _⟩ => ⟨S16384x4096, .f32⟩
  | .hbm, ⟨47, _⟩ => ⟨S16384x4096, .f32⟩
  | .hbm, ⟨48, _⟩ => ⟨S16384x4096, .f32⟩
  | .hbm, ⟨49, _⟩ => ⟨S4096x51, .f32⟩
  | .hbm, ⟨50, _⟩ => ⟨S16384x51, .f32⟩
  | .hbm, ⟨51, _⟩ => ⟨S1x51, .f32⟩
  | .hbm, ⟨52, _⟩ => ⟨S16384x51, .f32⟩
  | .hbm, ⟨53, _⟩ => ⟨S16384x51, .f32⟩
  | .hbm, ⟨54, _⟩ => ⟨S1024x51, .f32⟩
  | .hbm, ⟨55, _⟩ => ⟨S16384x51, .f32⟩
  | .hbm, ⟨56, _⟩ => ⟨S1x51, .f32⟩
  | .hbm, ⟨57, _⟩ => ⟨S16384x51, .f32⟩
  | .hbm, ⟨58, _⟩ => ⟨S16384x51, .f32⟩
  | .hbm, ⟨59, _⟩ => ⟨S16384x51, .f32⟩
  | .hbm, ⟨60, _⟩ => ⟨S_, .i32⟩
  | .hbm, ⟨61, _⟩ => ⟨S16384x2, .i32⟩
  | .hbm, ⟨62, _⟩ => ⟨S16384x2, .i1⟩
  | .hbm, ⟨63, _⟩ => ⟨S_, .i32⟩
  | .hbm, ⟨64, _⟩ => ⟨S16384x2, .i32⟩
  | .hbm, ⟨65, _⟩ => ⟨S16384x2, .i32⟩
  | .hbm, ⟨66, _⟩ => ⟨S16384x2, .i32⟩
  | .hbm, ⟨67, _⟩ => ⟨S16384x2x1, .i32⟩
  | .hbm, ⟨68, _⟩ => ⟨S16384x2, .i32⟩
  | .hbm, ⟨69, _⟩ => ⟨S16384x1, .i32⟩
  | .hbm, ⟨70, _⟩ => ⟨S16384, .i32⟩
  | .hbm, ⟨71, _⟩ => ⟨S_, .i32⟩
  | .hbm, ⟨72, _⟩ => ⟨S16384, .i32⟩
  | .hbm, ⟨73, _⟩ => ⟨S16384, .i32⟩
  | .hbm, ⟨74, _⟩ => ⟨S16384x1, .i32⟩
  | .hbm, ⟨75, _⟩ => ⟨S16384, .i32⟩
  | .hbm, ⟨76, _⟩ => ⟨S16384, .i32⟩
  | .hbm, ⟨77, _⟩ => ⟨S_, .i32⟩
  | .hbm, ⟨78, _⟩ => ⟨S16384, .i32⟩
  | .hbm, ⟨79, _⟩ => ⟨S16384, .i1⟩
  | .hbm, ⟨80, _⟩ => ⟨S_, .i32⟩
  | .hbm, ⟨81, _⟩ => ⟨S16384, .i32⟩
  | .hbm, ⟨82, _⟩ => ⟨S16384, .i32⟩
  | .hbm, ⟨83, _⟩ => ⟨S16384, .i32⟩
  | .hbm, ⟨84, _⟩ => ⟨S16384x1, .i32⟩
  | .hbm, ⟨85, _⟩ => ⟨S16384x51, .f32⟩
  | .hbm, ⟨86, _⟩ => ⟨S16384x51, .f32⟩
  | _, _ => ⟨S1280x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_c : Ref sig .tc := ⟨.hbm, 22, rfl⟩
abbrev main_v9 : Ref sig .tc := ⟨.hbm, 23, rfl⟩
abbrev main_v10 : Ref sig .tc := ⟨.hbm, 24, rfl⟩
abbrev main_c_0 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c_1 : Ref sig .tc := ⟨.hbm, 33, rfl⟩
abbrev main_v18 : Ref sig .tc := ⟨.hbm, 34, rfl⟩
abbrev main_v19 : Ref sig .tc := ⟨.hbm, 35, rfl⟩
abbrev main_c_2 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_c_3 : Ref sig .tc := ⟨.hbm, 60, rfl⟩
abbrev main_v43 : Ref sig .tc := ⟨.hbm, 61, rfl⟩
abbrev main_v44 : Ref sig .tc := ⟨.hbm, 62, rfl⟩
abbrev main_c_4 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_c_5 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_c_6 : Ref sig .tc := ⟨.hbm, 77, rfl⟩
abbrev main_v57 : Ref sig .tc := ⟨.hbm, 78, rfl⟩
abbrev main_v58 : Ref sig .tc := ⟨.hbm, 79, rfl⟩
abbrev main_c_7 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩

abbrev nD : Nat := 1
abbrev τ : Topo := Topo.v7x

variable {F : FTy → Type} [FloatOps F]

class Facts₀ : Prop where
  transposes_S1024x512_S512x1024_1_0 : S1024x512.Transposes [1, 0] S512x1024
  bcast_S1024_S1x1024_1 : S1024.BroadcastsInDim S1x1024 (![1] : Fin 1 → Fin S1x1024.rank)
  bcast_S1x1024_S1280x1024_0_1 : S1x1024.BroadcastsInDim S1280x1024 (![0, 1] : Fin 2 → Fin S1280x1024.rank)
  slices_S1280x1024_S1280x512_0_0 : S1280x1024.Slices ![0, 0] S1280x512
  slices_S1280x1024_S1280x512_0_512 : S1280x1024.Slices ![0, 512] S1280x512
  slices_S16384x2_S16384x1_0_0 : S16384x2.Slices ![0, 0] S16384x1
  shapeCasts_S16384x1_S16384 : S16384x1.ShapeCasts S16384
  bcast_S_S16384 : S_.BroadcastsInDim S16384 (![] : Fin 0 → Fin S16384.rank)
  bcast_S16384_S16384x1_0 : S16384.BroadcastsInDim S16384x1 (![0] : Fin 1 → Fin S16384x1.rank)
  slices_S16384x2_S16384x1_0_1 : S16384x2.Slices ![0, 1] S16384x1
  concatenates_S16384x512_S16384x512_S16384x1024_d1 : Shape.Concatenates [S16384x512, S16384x512] S16384x1024 1
  transposes_S4096x1024_S1024x4096_1_0 : S4096x1024.Transposes [1, 0] S1024x4096
  bcast_S4096_S1x4096_1 : S4096.BroadcastsInDim S1x4096 (![1] : Fin 1 → Fin S1x4096.rank)
  bcast_S1x4096_S16384x4096_0_1 : S1x4096.BroadcastsInDim S16384x4096 (![0, 1] : Fin 2 → Fin S16384x4096.rank)
  transposes_S51x4096_S4096x51_1_0 : S51x4096.Transposes [1, 0] S4096x51
  bcast_S51_S1x51_1 : S51.BroadcastsInDim S1x51 (![1] : Fin 1 → Fin S1x51.rank)
  bcast_S1x51_S16384x51_0_1 : S1x51.BroadcastsInDim S16384x51 (![0, 1] : Fin 2 → Fin S16384x51.rank)
  transposes_S51x1024_S1024x51_1_0 : S51x1024.Transposes [1, 0] S1024x51
  bcast_S_S16384x2 : S_.BroadcastsInDim S16384x2 (![] : Fin 0 → Fin S16384x2.rank)
  bcast_S16384x2_S16384x2x1_0_1 : S16384x2.BroadcastsInDim S16384x2x1 (![0, 1] : Fin 2 → Fin S16384x2x1.rank)
  dot_S1280x512_S512x1024_S1280x1024_1_0_0_1_n_n_wf : DotDims.WF S1280x512 S512x1024 S1280x1024 [1] [0] [0] [1] [] []
  gather_S1280x512_S16384x1_S16384x512_1_0_n_n_0_1_1512_wf : GatherDims.WF S1280x512 S16384x1 S16384x512 [1] [0] [] [0] [] 1 ![1, 512]
  dot_S16384x1024_S1024x4096_S16384x4096_1_0_0_1_n_n_wf : DotDims.WF S16384x1024 S1024x4096 S16384x4096 [1] [0] [0] [1] [] []
  dot_S16384x4096_S4096x51_S16384x51_1_0_0_1_n_n_wf : DotDims.WF S16384x4096 S4096x51 S16384x51 [1] [0] [0] [1] [] []
  dot_S16384x1024_S1024x51_S16384x51_1_0_0_1_n_n_wf : DotDims.WF S16384x1024 S1024x51 S16384x51 [1] [0] [0] [1] [] []
  gather_S1280_S16384x2x1_S16384x2_n_0_n_n_0_2_1_wf : GatherDims.WF S1280 S16384x2x1 S16384x2 [] [0] [] [0] [] 2 ![1]
  gather_S22801x51_S16384x1_S16384x51_1_0_n_n_0_1_151_wf : GatherDims.WF S22801x51 S16384x1 S16384x51 [1] [0] [] [0] [] 1 ![1, 51]

variable [Facts₀]

def dot_S1280x512_S512x1024_S1280x1024_1_0_0_1_n_n : DotDims S1280x512 S512x1024 S1280x1024 where
  lhsContracting := [1]
  rhsContracting := [0]
  lhsNonContracting := [0]
  rhsNonContracting := [1]
  lhsBatch := []
  rhsBatch := []
  wf := dot_S1280x512_S512x1024_S1280x1024_1_0_0_1_n_n_wf
def gather_S1280x512_S16384x1_S16384x512_1_0_n_n_0_1_1512 : GatherDims S1280x512 S16384x1 S16384x512 where
  offsetDims := [1]
  collapsedSliceDims := [0]
  operandBatchingDims := []
  startIndicesBatchingDims := []
  startIndexMap := [0]
  indexVectorDim := 1
  sliceSizes := ![1, 512]
  wf := gather_S1280x512_S16384x1_S16384x512_1_0_n_n_0_1_1512_wf
def dot_S16384x1024_S1024x4096_S16384x4096_1_0_0_1_n_n : DotDims S16384x1024 S1024x4096 S16384x4096 where
  lhsContracting := [1]
  rhsContracting := [0]
  lhsNonContracting := [0]
  rhsNonContracting := [1]
  lhsBatch := []
  rhsBatch := []
  wf := dot_S16384x1024_S1024x4096_S16384x4096_1_0_0_1_n_n_wf
def dot_S16384x4096_S4096x51_S16384x51_1_0_0_1_n_n : DotDims S16384x4096 S4096x51 S16384x51 where
  lhsContracting := [1]
  rhsContracting := [0]
  lhsNonContracting := [0]
  rhsNonContracting := [1]
  lhsBatch := []
  rhsBatch := []
  wf := dot_S16384x4096_S4096x51_S16384x51_1_0_0_1_n_n_wf
def dot_S16384x1024_S1024x51_S16384x51_1_0_0_1_n_n : DotDims S16384x1024 S1024x51 S16384x51 where
  lhsContracting := [1]
  rhsContracting := [0]
  lhsNonContracting := [0]
  rhsNonContracting := [1]
  lhsBatch := []
  rhsBatch := []
  wf := dot_S16384x1024_S1024x51_S16384x51_1_0_0_1_n_n_wf
def gather_S1280_S16384x2x1_S16384x2_n_0_n_n_0_2_1 : GatherDims S1280 S16384x2x1 S16384x2 where
  offsetDims := []
  collapsedSliceDims := [0]
  operandBatchingDims := []
  startIndicesBatchingDims := []
  startIndexMap := [0]
  indexVectorDim := 2
  sliceSizes := ![1]
  wf := gather_S1280_S16384x2x1_S16384x2_n_0_n_n_0_2_1_wf
def gather_S22801x51_S16384x1_S16384x51_1_0_n_n_0_1_151 : GatherDims S22801x51 S16384x1 S16384x51 where
  offsetDims := [1]
  collapsedSliceDims := [0]
  operandBatchingDims := []
  startIndicesBatchingDims := []
  startIndexMap := [0]
  indexVectorDim := 1
  sliceSizes := ![1, 51]
  wf := gather_S22801x51_S16384x1_S16384x51_1_0_n_n_0_1_151_wf

class Facts : Prop extends Facts₀ where

variable [Facts]
-- ==== Proof.BlockReads.lean ====
/-
  The blocks a grid point works on, read off the arrays; and the blocks of the result covering it.

  The grid has 64 points. At point `t` the pair representation, the union features, the padded frequency bias and
  the result are cut into blocks of 256 rows, and the point's block is rows `256·t … 256·t + 255`: element `(p, k)`
  of the block is element `(256·t + p, k)` of the array. The three weights and the three bias rows are staged whole at
  every point. Every row `r` of the result lies in the block of point `r / 256`, so the 64 blocks cover it.
-/
import proofs.«173849_j68040871903599_1_alg».proof.Proof.Gen.KernelIdeal.Frame
import Idealize.ShloMosaic.Lib.Pipeline.Value
import Idealize.ShloMosaic.Lib.ValueIdx
import Idealize.ShloMosaic.PureOps.Ideal

noncomputable section

namespace Cert.KernelIdeal.Blocks

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ)

theorem origin : (![0, 0] : Fin 2 → Nat) = fun _ => 0 := funext fun a => by fin_cases a <;> rfl

/-- Row `p` of point `t`'s block is row `256·t + p` of the array. -/
def rowOf (t : Fin cfg0.N) (p : Fin 256) : Fin 16384 :=
  ⟨t.val * 256 + p.val, by
    have h : t.val < grid0.N := t.isLt
    rw [N_0] at h
    have := p.isLt
    omega⟩

theorem rowOf_val (t : Fin cfg0.N) (p : Fin 256) : (rowOf t p).val = t.val * 256 + p.val := rfl

/-- Point `t`'s block of operand 0: rows `256·t …` of its array. -/
theorem idx0 : ∀ t : Fin cfg0.N, win0_0.index t (0 : Fin 2) = t.val ∧ win0_0.index t (1 : Fin 2) = 0 :=
  (by decide +kernel : ∀ t : Fin grid0.N, _)

theorem rows0 (c : Dev nD) (t : Fin cfg0.N) :
    (iblk m c 0 t : S256x1024.Idx → EReal)
      = fun y => (V m c main_v25 : S16384x1024.Idx → EReal) (ix2 (n0 := 16384) (n1 := 1024) (rowOf t (y 0)) (y 1)) := by
  obtain ⟨e0, e1⟩ := idx0 t
  funext y
  show V m c main_v25 (((cfg0.win 0).blk t).view.emb y) = V m c main_v25 (ix2 (n0 := 16384) (n1 := 1024) (rowOf t (y 0)) (y 1))
  refine congrArg (V m c main_v25) ?_
  funext a; apply Fin.ext
  match a with
  | ⟨0, _⟩ => show win0_0.index t (0 : Fin 2) * 256 + 1 * (y 0).val = t.val * 256 + (y 0).val; rw [e0]; omega
  | ⟨1, _⟩ => show win0_0.index t (1 : Fin 2) * 1024 + 1 * (y 1).val = (y 1).val; rw [e1]; omega

/-- Point `t`'s block of operand 1: rows `256·t …` of its array. -/
theorem idx1 : ∀ t : Fin cfg0.N, win0_1.index t (0 : Fin 2) = t.val ∧ win0_1.index t (1 : Fin 2) = 0 :=
  (by decide +kernel : ∀ t : Fin grid0.N, _)

theorem rows1 (c : Dev nD) (t : Fin cfg0.N) :
    (iblk m c 1 t : S256x4096.Idx → EReal)
      = fun y => (V m c main_arg3 : S16384x4096.Idx → EReal) (ix2 (n0 := 16384) (n1 := 4096) (rowOf t (y 0)) (y 1)) := by
  obtain ⟨e0, e1⟩ := idx1 t
  funext y
  show V m c main_arg3 (((cfg0.win 1).blk t).view.emb y) = V m c main_arg3 (ix2 (n0 := 16384) (n1 := 4096) (rowOf t (y 0)) (y 1))
  refine congrArg (V m c main_arg3) ?_
  funext a; apply Fin.ext
  match a with
  | ⟨0, _⟩ => show win0_1.index t (0 : Fin 2) * 256 + 1 * (y 0).val = t.val * 256 + (y 0).val; rw [e0]; omega
  | ⟨1, _⟩ => show win0_1.index t (1 : Fin 2) * 4096 + 1 * (y 1).val = (y 1).val; rw [e1]; omega

/-- Point `t`'s block of operand 2: rows `256·t …` of its array. -/
theorem idx2 : ∀ t : Fin cfg0.N, win0_2.index t (0 : Fin 2) = t.val ∧ win0_2.index t (1 : Fin 2) = 0 :=
  (by decide +kernel : ∀ t : Fin grid0.N, _)

theorem rows2 (c : Dev nD) (t : Fin cfg0.N) :
    (iblk m c 2 t : S256x128.Idx → EReal)
      = fun y => (V m c main_v47 : S16384x128.Idx → EReal) (ix2 (n0 := 16384) (n1 := 128) (rowOf t (y 0)) (y 1)) := by
  obtain ⟨e0, e1⟩ := idx2 t
  funext y
  show V m c main_v47 (((cfg0.win 2).blk t).view.emb y) = V m c main_v47 (ix2 (n0 := 16384) (n1 := 128) (rowOf t (y 0)) (y 1))
  refine congrArg (V m c main_v47) ?_
  funext a; apply Fin.ext
  match a with
  | ⟨0, _⟩ => show win0_2.index t (0 : Fin 2) * 256 + 1 * (y 0).val = t.val * 256 + (y 0).val; rw [e0]; omega
  | ⟨1, _⟩ => show win0_2.index t (1 : Fin 2) * 128 + 1 * (y 1).val = (y 1).val; rw [e1]; omega

/-- Operand 3 is staged whole at every point. -/
theorem idx3 : ∀ t : Fin cfg0.N, win0_3.index t (0 : Fin 2) = 0 ∧ win0_3.index t (1 : Fin 2) = 0 :=
  (by decide +kernel : ∀ t : Fin grid0.N, _)

theorem whole3 (c : Dev nD) (t : Fin cfg0.N) :
    (iblk m c 3 t : S1024x4096.Idx → Ideal .bf16) = V m c main_v49 := by
  obtain ⟨e0, e1⟩ := idx3 t
  funext y
  show V m c main_v49 (((cfg0.win 3).blk t).view.emb y) = V m c main_v49 y
  refine congrArg (V m c main_v49) ?_
  funext a; apply Fin.ext
  match a with
  | ⟨0, _⟩ => show win0_3.index t (0 : Fin 2) * 1024 + 1 * (y 0).val = (y 0).val; rw [e0]; omega
  | ⟨1, _⟩ => show win0_3.index t (1 : Fin 2) * 4096 + 1 * (y 1).val = (y 1).val; rw [e1]; omega

/-- Operand 4 is staged whole at every point. -/
theorem idx4 : ∀ t : Fin cfg0.N, win0_4.index t (0 : Fin 2) = 0 ∧ win0_4.index t (1 : Fin 2) = 0 :=
  (by decide +kernel : ∀ t : Fin grid0.N, _)

theorem whole4 (c : Dev nD) (t : Fin cfg0.N) :
    (iblk m c 4 t : S1x4096.Idx → Ideal .f32) = V m c main_v56 := by
  obtain ⟨e0, e1⟩ := idx4 t
  funext y
  show V m c main_v56 (((cfg0.win 4).blk t).view.emb y) = V m c main_v56 y
  refine congrArg (V m c main_v56) ?_
  funext a; apply Fin.ext
  match a with
  | ⟨0, _⟩ => show win0_4.index t (0 : Fin 2) * 1 + 1 * (y 0).val = (y 0).val; rw [e0]; omega
  | ⟨1, _⟩ => show win0_4.index t (1 : Fin 2) * 4096 + 1 * (y 1).val = (y 1).val; rw [e1]; omega

/-- Operand 5 is staged whole at every point. -/
theorem idx5 : ∀ t : Fin cfg0.N, win0_5.index t (0 : Fin 2) = 0 ∧ win0_5.index t (1 : Fin 2) = 0 :=
  (by decide +kernel : ∀ t : Fin grid0.N, _)

theorem whole5 (c : Dev nD) (t : Fin cfg0.N) :
    (iblk m c 5 t : S4096x128.Idx → Ideal .bf16) = V m c main_v52 := by
  obtain ⟨e0, e1⟩ := idx5 t
  funext y
  show V m c main_v52 (((cfg0.win 5).blk t).view.emb y) = V m c main_v52 y
  refine congrArg (V m c main_v52) ?_
  funext a; apply Fin.ext
  match a with
  | ⟨0, _⟩ => show win0_5.index t (0 : Fin 2) * 4096 + 1 * (y 0).val = (y 0).val; rw [e0]; omega
  | ⟨1, _⟩ => show win0_5.index t (1 : Fin 2) * 128 + 1 * (y 1).val = (y 1).val; rw [e1]; omega

/-- Operand 6 is staged whole at every point. -/
theorem idx6 : ∀ t : Fin cfg0.N, win0_6.index t (0 : Fin 2) = 0 ∧ win0_6.index t (1 : Fin 2) = 0 :=
  (by decide +kernel : ∀ t : Fin grid0.N, _)

theorem whole6 (c : Dev nD) (t : Fin cfg0.N) :
    (iblk m c 6 t : S1x128.Idx → Ideal .f32) = V m c main_v58 := by
  obtain ⟨e0, e1⟩ := idx6 t
  funext y
  show V m c main_v58 (((cfg0.win 6).blk t).view.emb y) = V m c main_v58 y
  refine congrArg (V m c main_v58) ?_
  funext a; apply Fin.ext
  match a with
  | ⟨0, _⟩ => show win0_6.index t (0 : Fin 2) * 1 + 1 * (y 0).val = (y 0).val; rw [e0]; omega
  | ⟨1, _⟩ => show win0_6.index t (1 : Fin 2) * 128 + 1 * (y 1).val = (y 1).val; rw [e1]; omega

/-- Operand 7 is staged whole at every point. -/
theorem idx7 : ∀ t : Fin cfg0.N, win0_7.index t (0 : Fin 2) = 0 ∧ win0_7.index t (1 : Fin 2) = 0 :=
  (by decide +kernel : ∀ t : Fin grid0.N, _)

theorem whole7 (c : Dev nD) (t : Fin cfg0.N) :
    (iblk m c 7 t : S1024x128.Idx → Ideal .bf16) = V m c main_v55 := by
  obtain ⟨e0, e1⟩ := idx7 t
  funext y
  show V m c main_v55 (((cfg0.win 7).blk t).view.emb y) = V m c main_v55 y
  refine congrArg (V m c main_v55) ?_
  funext a; apply Fin.ext
  match a with
  | ⟨0, _⟩ => show win0_7.index t (0 : Fin 2) * 1024 + 1 * (y 0).val = (y 0).val; rw [e0]; omega
  | ⟨1, _⟩ => show win0_7.index t (1 : Fin 2) * 128 + 1 * (y 1).val = (y 1).val; rw [e1]; omega

/-- Operand 8 is staged whole at every point. -/
theorem idx8 : ∀ t : Fin cfg0.N, win0_8.index t (0 : Fin 2) = 0 ∧ win0_8.index t (1 : Fin 2) = 0 :=
  (by decide +kernel : ∀ t : Fin grid0.N, _)

theorem whole8 (c : Dev nD) (t : Fin cfg0.N) :
    (iblk m c 8 t : S1x128.Idx → Ideal .f32) = V m c main_v60 := by
  obtain ⟨e0, e1⟩ := idx8 t
  funext y
  show V m c main_v60 (((cfg0.win 8).blk t).view.emb y) = V m c main_v60 y
  refine congrArg (V m c main_v60) ?_
  funext a; apply Fin.ext
  match a with
  | ⟨0, _⟩ => show win0_8.index t (0 : Fin 2) * 1 + 1 * (y 0).val = (y 0).val; rw [e0]; omega
  | ⟨1, _⟩ => show win0_8.index t (1 : Fin 2) * 128 + 1 * (y 1).val = (y 1).val; rw [e1]; omega

/-- The result's block at point `t` is rows `256·t …` too. -/
theorem idx9 : ∀ t : Fin cfg0.N, win0_9.index t (0 : Fin 2) = t.val ∧ win0_9.index t (1 : Fin 2) = 0 :=
  (by decide +kernel : ∀ t : Fin grid0.N, _)

/-- An index of the result is in point `t`'s block iff each coordinate is in the block's range on its axis. -/
theorem mem_block (t : Fin cfg0.N) (i : S16384x128.Idx) :
    i ∈ ((cfg0.win 9).blk t).view.set ↔ ∀ a : Fin 2, win0_9.index t a * S256x128.size a ≤ (i a).val
      ∧ (i a).val < win0_9.index t a * S256x128.size a + S256x128.size a := by
  show i ∈ ((View.whole main_v61).slice (win0_9.rect t)).set ↔ _
  rw [View.set_slice_whole, Rect.mem_set_unit]
  exact Iff.rfl

/-- Every index of the result is in the block of the point its row falls in, and every point writes its block back. -/
theorem cover (i : S16384x128.Idx) :
    ∃ t : Fin cfg0.N, (cfg0.win 9).flush t = true ∧ i ∈ ((cfg0.win 9).blk t).view.set := by
  have hi0 : (i 0).val < 16384 := (i 0).isLt
  have hi1 : (i 1).val < 128 := (i 1).isLt
  have ht : (i 0).val / 256 < cfg0.N := by show _ < grid0.N; rw [N_0]; omega
  obtain ⟨e0, e1⟩ := idx9 ⟨(i 0).val / 256, ht⟩
  refine ⟨⟨(i 0).val / 256, ht⟩, flush0_9 _, ?_⟩
  rw [mem_block]
  intro a
  match a with
  | ⟨0, _⟩ =>
    show win0_9.index ⟨(i 0).val / 256, ht⟩ (0 : Fin 2) * 256 ≤ (i 0).val
      ∧ (i 0).val < win0_9.index ⟨(i 0).val / 256, ht⟩ (0 : Fin 2) * 256 + 256
    rw [e0]; show (i 0).val / 256 * 256 ≤ (i 0).val ∧ (i 0).val < (i 0).val / 256 * 256 + 256; omega
  | ⟨1, _⟩ =>
    show win0_9.index ⟨(i 0).val / 256, ht⟩ (1 : Fin 2) * 128 ≤ (i 1).val
      ∧ (i 1).val < win0_9.index ⟨(i 0).val / 256, ht⟩ (1 : Fin 2) * 128 + 128
    rw [e1]; omega

end Cert.KernelIdeal.Blocks

end
-- ==== Proof.LibPlainProduct.lean ====
/-
  The product of two arrays of extended reals, rows by columns, and the two operations that compute it.

  For an `M × K` array `x` and a `K × N` array `w`, `rowsByCols x w` is the `M × N` array whose entry `(r, c)` is
  the sum over `k` of `x (r, k) · w (k, c)`. On the extended reals addition is commutative and associative, so the
  sum over the finite index set is well defined whatever its order; nothing here needs the entries to be finite.

  * `matmul_zero_plain`: a matrix unit's product into the zero accumulator, with the plain dimension numbers
    (`DotDims.plain`: contract the left operand's columns with the right operand's rows), is `rowsByCols`.
  * `dotGeneral_plain`: the host's general dot product with the same dimension numbers is `rowsByCols` too.
  * `rowsByCols_rows`: the rows of a product depend on the same rows of the left operand only — if `xb` holds rows
    `e r` of `x`, then `rowsByCols xb w` holds rows `e r` of `rowsByCols x w`. This is what lets a product computed
    one block of rows at a time be read as the whole product.
-/
import Idealize.ShloMosaic.Lib.ValueIdx
import Idealize.ShloMosaic.PureOps.Ideal.Laws

noncomputable section

open scoped BigOperators

namespace Idealize.ShloMosaic.PlainProduct

open Idealize.ShloMosaic Idealize.ShloMosaic.ValueIdx

variable {φ₁ φ₂ : FTy} {M K N : Nat}

/-- Rows by columns: entry `(r, c)` is `∑ k, x (r, k) · w (k, c)`. -/
def rowsByCols (x : FVec Ideal ⟨2, ![M, K]⟩ φ₁) (w : FVec Ideal ⟨2, ![K, N]⟩ φ₂) : FVec Ideal ⟨2, ![M, N]⟩ .f32 :=
  fun i => ∑ k : Fin K, x (ix2 (n0 := M) (n1 := K) (i 0) k) * w (ix2 (n0 := K) (n1 := N) k (i 1))

theorem rowsByCols_apply (x : FVec Ideal ⟨2, ![M, K]⟩ φ₁) (w : FVec Ideal ⟨2, ![K, N]⟩ φ₂) (i : (⟨2, ![M, N]⟩ : Shape).Idx) :
    rowsByCols x w i = ∑ k : Fin K, x (ix2 (n0 := M) (n1 := K) (i 0) k) * w (ix2 (n0 := K) (n1 := N) k (i 1)) := rfl

/-- With the plain dimension numbers the left operand is read at (row of the result, contraction position). -/
theorem plain_lhsIdx (j : (⟨2, ![M, N]⟩ : Shape).Idx) (k : Fin K) :
    (DotDims.plain M K N).lhsIdx j ((contrEquiv1 (DotDims.plain M K N) K rfl rfl).symm k) = ix2 (n0 := M) (n1 := K) (j 0) k := by
  funext a; apply Fin.ext
  match a with
  | ⟨0, _⟩ => rfl
  | ⟨1, _⟩ => exact ((DotDims.plain M K N).lhsIdx_val_of_single rfl j _).trans (contrEquiv1_symm_val _ K rfl rfl k)

/-- … and the right operand at (contraction position, column of the result). -/
theorem plain_rhsIdx (j : (⟨2, ![M, N]⟩ : Shape).Idx) (k : Fin K) :
    (DotDims.plain M K N).rhsIdx j ((contrEquiv1 (DotDims.plain M K N) K rfl rfl).symm k) = ix2 (n0 := K) (n1 := N) k (j 1) := by
  funext a; apply Fin.ext
  match a with
  | ⟨0, _⟩ => exact ((DotDims.plain M K N).rhsIdx_val_of_single rfl j _).trans (contrEquiv1_symm_val _ K rfl rfl k)
  | ⟨1, _⟩ => rfl

/-- The sum over the contraction index of the operands' products, read at the operands' indices, is the sum over
    `k` of `x (r, k) · w (k, c)`. -/
theorem sum_plain (x : FVec Ideal ⟨2, ![M, K]⟩ φ₁) (w : FVec Ideal ⟨2, ![K, N]⟩ φ₂) (j : (⟨2, ![M, N]⟩ : Shape).Idx) :
    (∑ q : (DotDims.plain M K N).contr.Idx, x ((DotDims.plain M K N).lhsIdx j q) * w ((DotDims.plain M K N).rhsIdx j q))
      = rowsByCols x w j :=
  (Equiv.sum_comp (contrEquiv1 (DotDims.plain M K N) K rfl rfl).symm
      (fun q => x ((DotDims.plain M K N).lhsIdx j q) * w ((DotDims.plain M K N).rhsIdx j q))).symm.trans
    (Finset.sum_congr rfl fun k _ =>
      congrArg₂ (fun a b => x a * w b) (plain_lhsIdx j k) (plain_rhsIdx j k))

/-- A matrix unit's product into the zero accumulator is the product rows by columns. -/
theorem matmul_zero_plain (prec : Option ContractPrecision) (x : FVec Ideal ⟨2, ![M, K]⟩ φ₁) (w : FVec Ideal ⟨2, ![K, N]⟩ φ₂) :
    FloatOps.matmul (DotDims.plain M K N) prec x w (constant ⟨2, ![M, N]⟩ .f32 0x00000000#32) = rowsByCols x w :=
  funext fun j => (Ideal.matmul_constant_zero_apply (DotDims.plain M K N) prec x w j).trans (sum_plain x w j)

/-- The host's general dot product with the same dimension numbers is the same product, whatever its schedule. -/
theorem dotGeneral_plain (prec : Option ContractPrecision) (sched : HostSchedule) (x : FVec Ideal ⟨2, ![M, K]⟩ φ₁)
    (w : FVec Ideal ⟨2, ![K, N]⟩ φ₂) :
    FloatOps.dotGeneral (DotDims.plain M K N) prec sched x w = rowsByCols x w :=
  funext fun j => (Ideal.dotGeneral_apply (DotDims.plain M K N) prec sched x w j).trans (sum_plain x w j)

/-- Rows `e r` of a product are the product of rows `e r` of the left operand: if `xb (r, k) = x (e r, k)` then
    `(xb · w) (r, c) = (x · w) (e r, c)`. -/
theorem rowsByCols_rows {B : Nat} (x : FVec Ideal ⟨2, ![M, K]⟩ φ₁) (w : FVec Ideal ⟨2, ![K, N]⟩ φ₂)
    (xb : FVec Ideal ⟨2, ![B, K]⟩ φ₁) (e : Fin B → Fin M)
    (hxb : ∀ (r : Fin B) (k : Fin K), xb (ix2 (n0 := B) (n1 := K) r k) = x (ix2 (n0 := M) (n1 := K) (e r) k))
    (j : (⟨2, ![B, N]⟩ : Shape).Idx) :
    rowsByCols xb w j = rowsByCols x w (ix2 (n0 := M) (n1 := N) (e (j 0)) (j 1)) :=
  Finset.sum_congr rfl fun k _ =>
    congrArg (fun a => a * w (ix2 (n0 := K) (n1 := N) k (j 1))) (hxb (j 0) k)

end Idealize.ShloMosaic.PlainProduct

end
-- ==== Proof.RelLogits.lean ====
/-
  Relation logits on the extended reals, as one function of the arrays that enter them.

  From a pair representation `P` (`R` rows of `K` features), union features `U` (`R` rows of `H` features) and a
  per-row frequency bias `Fq` (`R` rows of `N` classes) the logits are

      ((P · Wg + bg) ⊙ U) · Wr + br  +  (P · Wc + bc)  +  Fq,

  where `·` is the product rows by columns, `⊙` the entrywise product, and each bias is ONE row added to every row.
  Entry `(r, c)` reads row `r` of `P`, `U` and `Fq`, column `c` of `Wr`, `Wc`, `br`, `bc` and `Fq`, and all of
  `Wg`, `bg`. Two laws follow from that alone — neither moves a factor across a sum or cancels anything, so neither
  asks the entries to be finite:

  * `logits_rows`: the logits of a block of rows are those rows of the logits (what lets an array computed one block
    of rows at a time be read as the whole array);
  * `logits_cols`: if the class axis is embedded into a longer one by `ι` and every array with a class axis agrees
    with its longer version along `ι`, the logits agree along `ι` (what lets the class axis be padded and the padding
    cut away again: a padded column never enters another column's sums).
-/
import Idealize.ShloMosaic.Lib.ValueIdx
import proofs.«173849_j68040871903599_1_alg».proof.Proof.LibPlainProduct

noncomputable section

open scoped BigOperators

namespace Cert.RelLogits

open Idealize.ShloMosaic Idealize.ShloMosaic.ValueIdx Idealize.ShloMosaic.PlainProduct

variable {R K H N : Nat} {φg φr φc : FTy}

/-- The gated features `(P · Wg + bg) ⊙ U`: entry `(r, h)` is `(∑ k, P (r, k) · Wg (k, h) + bg h) · U (r, h)`. -/
def gated (P : FVec Ideal ⟨2, ![R, K]⟩ .f32) (U : FVec Ideal ⟨2, ![R, H]⟩ .f32)
    (Wg : FVec Ideal ⟨2, ![K, H]⟩ φg) (bg : FVec Ideal ⟨2, ![1, H]⟩ .f32) : FVec Ideal ⟨2, ![R, H]⟩ .f32 :=
  fun i => (rowsByCols P Wg i + bg (ix2 (n0 := 1) (n1 := H) 0 (i 1))) * U i

/-- The logits: entry `(r, c)` is
    `(∑ h, gated (r, h) · Wr (h, c) + br c) + (∑ k, P (r, k) · Wc (k, c) + bc c) + Fq (r, c)`. -/
def logits (P : FVec Ideal ⟨2, ![R, K]⟩ .f32) (U : FVec Ideal ⟨2, ![R, H]⟩ .f32) (Fq : FVec Ideal ⟨2, ![R, N]⟩ .f32)
    (Wg : FVec Ideal ⟨2, ![K, H]⟩ φg) (bg : FVec Ideal ⟨2, ![1, H]⟩ .f32)
    (Wr : FVec Ideal ⟨2, ![H, N]⟩ φr) (br : FVec Ideal ⟨2, ![1, N]⟩ .f32)
    (Wc : FVec Ideal ⟨2, ![K, N]⟩ φc) (bc : FVec Ideal ⟨2, ![1, N]⟩ .f32) : FVec Ideal ⟨2, ![R, N]⟩ .f32 :=
  fun i => ((rowsByCols (gated P U Wg bg) Wr i + br (ix2 (n0 := 1) (n1 := N) 0 (i 1)))
      + (rowsByCols P Wc i + bc (ix2 (n0 := 1) (n1 := N) 0 (i 1)))) + Fq i

/-- Row `e r` of the gated features is computed from row `e r` of `P` and of `U`. -/
theorem gated_rows {B : Nat} (P : FVec Ideal ⟨2, ![R, K]⟩ .f32) (U : FVec Ideal ⟨2, ![R, H]⟩ .f32)
    (Wg : FVec Ideal ⟨2, ![K, H]⟩ φg) (bg : FVec Ideal ⟨2, ![1, H]⟩ .f32)
    (Pb : FVec Ideal ⟨2, ![B, K]⟩ .f32) (Ub : FVec Ideal ⟨2, ![B, H]⟩ .f32) (e : Fin B → Fin R)
    (hP : ∀ (r : Fin B) (k : Fin K), Pb (ix2 (n0 := B) (n1 := K) r k) = P (ix2 (n0 := R) (n1 := K) (e r) k))
    (hU : ∀ (r : Fin B) (h : Fin H), Ub (ix2 (n0 := B) (n1 := H) r h) = U (ix2 (n0 := R) (n1 := H) (e r) h))
    (r : Fin B) (h : Fin H) :
    gated Pb Ub Wg bg (ix2 (n0 := B) (n1 := H) r h) = gated P U Wg bg (ix2 (n0 := R) (n1 := H) (e r) h) :=
  congrArg₂ (fun a b => (a + bg (ix2 (n0 := 1) (n1 := H) 0 h)) * b)
    (rowsByCols_rows P Wg Pb e hP (ix2 (n0 := B) (n1 := H) r h)) (hU r h)

/-- The logits of a block of rows are those rows of the logits: if `Pb`, `Ub`, `Fb` hold rows `e r` of `P`, `U`,
    `Fq`, then entry `(r, c)` of the block's logits is entry `(e r, c)` of the whole. -/
theorem logits_rows {B : Nat} (P : FVec Ideal ⟨2, ![R, K]⟩ .f32) (U : FVec Ideal ⟨2, ![R, H]⟩ .f32)
    (Fq : FVec Ideal ⟨2, ![R, N]⟩ .f32) (Wg : FVec Ideal ⟨2, ![K, H]⟩ φg) (bg : FVec Ideal ⟨2, ![1, H]⟩ .f32)
    (Wr : FVec Ideal ⟨2, ![H, N]⟩ φr) (br : FVec Ideal ⟨2, ![1, N]⟩ .f32)
    (Wc : FVec Ideal ⟨2, ![K, N]⟩ φc) (bc : FVec Ideal ⟨2, ![1, N]⟩ .f32)
    (Pb : FVec Ideal ⟨2, ![B, K]⟩ .f32) (Ub : FVec Ideal ⟨2, ![B, H]⟩ .f32) (Fb : FVec Ideal ⟨2, ![B, N]⟩ .f32)
    (e : Fin B → Fin R)
    (hP : ∀ (r : Fin B) (k : Fin K), Pb (ix2 (n0 := B) (n1 := K) r k) = P (ix2 (n0 := R) (n1 := K) (e r) k))
    (hU : ∀ (r : Fin B) (h : Fin H), Ub (ix2 (n0 := B) (n1 := H) r h) = U (ix2 (n0 := R) (n1 := H) (e r) h))
    (hF : ∀ (r : Fin B) (c : Fin N), Fb (ix2 (n0 := B) (n1 := N) r c) = Fq (ix2 (n0 := R) (n1 := N) (e r) c))
    (r : Fin B) (c : Fin N) :
    logits Pb Ub Fb Wg bg Wr br Wc bc (ix2 (n0 := B) (n1 := N) r c)
      = logits P U Fq Wg bg Wr br Wc bc (ix2 (n0 := R) (n1 := N) (e r) c) :=
  congrArg₂ (· + ·)
    (congrArg₂ (fun a b => (a + br (ix2 (n0 := 1) (n1 := N) 0 c)) + (b + bc (ix2 (n0 := 1) (n1 := N) 0 c)))
      (rowsByCols_rows (gated P U Wg bg) Wr (gated Pb Ub Wg bg) e (gated_rows P U Wg bg Pb Ub e hP hU)
        (ix2 (n0 := B) (n1 := N) r c))
      (rowsByCols_rows P Wc Pb e hP (ix2 (n0 := B) (n1 := N) r c)))
    (hF r c)

/-- `logits_rows` as an equation between arrays: the logits of the rows `e r` are the rows `e r` of the logits. -/
theorem logits_rows_fun {B : Nat} (e : Fin B → Fin R) (P : FVec Ideal ⟨2, ![R, K]⟩ .f32) (U : FVec Ideal ⟨2, ![R, H]⟩ .f32)
    (Fq : FVec Ideal ⟨2, ![R, N]⟩ .f32) (Wg : FVec Ideal ⟨2, ![K, H]⟩ φg) (bg : FVec Ideal ⟨2, ![1, H]⟩ .f32)
    (Wr : FVec Ideal ⟨2, ![H, N]⟩ φr) (br : FVec Ideal ⟨2, ![1, N]⟩ .f32)
    (Wc : FVec Ideal ⟨2, ![K, N]⟩ φc) (bc : FVec Ideal ⟨2, ![1, N]⟩ .f32) :
    logits (fun i : (⟨2, ![B, K]⟩ : Shape).Idx => P (ix2 (n0 := R) (n1 := K) (e (i 0)) (i 1)))
        (fun i : (⟨2, ![B, H]⟩ : Shape).Idx => U (ix2 (n0 := R) (n1 := H) (e (i 0)) (i 1)))
        (fun i : (⟨2, ![B, N]⟩ : Shape).Idx => Fq (ix2 (n0 := R) (n1 := N) (e (i 0)) (i 1))) Wg bg Wr br Wc bc
      = fun j : (⟨2, ![B, N]⟩ : Shape).Idx =>
          logits P U Fq Wg bg Wr br Wc bc (ix2 (n0 := R) (n1 := N) (e (j 0)) (j 1)) := by
  funext j
  obtain ⟨r, c, rfl⟩ : ∃ (r : Fin B) (c : Fin N), j = ix2 r c := ⟨j 0, j 1, eq_ix2 j⟩
  exact logits_rows P U Fq Wg bg Wr br Wc bc _ _ _ e (fun _ _ => rfl) (fun _ _ => rfl) (fun _ _ => rfl) r c

/-- The logits along an embedding `ι` of the class axis into a longer one: arrays without a class axis that agree
    entry by entry, and arrays with one that agree along `ι`, give logits that agree along `ι`. The entries of the
    longer arrays off `ι`'s range are never read. -/
theorem logits_cols {N' : Nat} {ψg ψr ψc : FTy} (ι : Fin N → Fin N')
    (P : FVec Ideal ⟨2, ![R, K]⟩ .f32) (U : FVec Ideal ⟨2, ![R, H]⟩ .f32)
    (Fq : FVec Ideal ⟨2, ![R, N]⟩ .f32) (Fq' : FVec Ideal ⟨2, ![R, N']⟩ .f32)
    (Wg : FVec Ideal ⟨2, ![K, H]⟩ φg) (Wg' : FVec Ideal ⟨2, ![K, H]⟩ ψg)
    (bg bg' : FVec Ideal ⟨2, ![1, H]⟩ .f32)
    (Wr : FVec Ideal ⟨2, ![H, N]⟩ φr) (Wr' : FVec Ideal ⟨2, ![H, N']⟩ ψr)
    (br : FVec Ideal ⟨2, ![1, N]⟩ .f32) (br' : FVec Ideal ⟨2, ![1, N']⟩ .f32)
    (Wc : FVec Ideal ⟨2, ![K, N]⟩ φc) (Wc' : FVec Ideal ⟨2, ![K, N']⟩ ψc)
    (bc : FVec Ideal ⟨2, ![1, N]⟩ .f32) (bc' : FVec Ideal ⟨2, ![1, N']⟩ .f32)
    (hF : ∀ (r : Fin R) (c : Fin N), Fq' (ix2 (n0 := R) (n1 := N') r (ι c)) = Fq (ix2 (n0 := R) (n1 := N) r c))
    (hWg : ∀ (k : Fin K) (h : Fin H), (Wg' (ix2 (n0 := K) (n1 := H) k h) : EReal) = Wg (ix2 (n0 := K) (n1 := H) k h))
    (hbg : ∀ h : Fin H, bg' (ix2 (n0 := 1) (n1 := H) 0 h) = bg (ix2 (n0 := 1) (n1 := H) 0 h))
    (hWr : ∀ (h : Fin H) (c : Fin N), (Wr' (ix2 (n0 := H) (n1 := N') h (ι c)) : EReal) = Wr (ix2 (n0 := H) (n1 := N) h c))
    (hbr : ∀ c : Fin N, br' (ix2 (n0 := 1) (n1 := N') 0 (ι c)) = br (ix2 (n0 := 1) (n1 := N) 0 c))
    (hWc : ∀ (k : Fin K) (c : Fin N), (Wc' (ix2 (n0 := K) (n1 := N') k (ι c)) : EReal) = Wc (ix2 (n0 := K) (n1 := N) k c))
    (hbc : ∀ c : Fin N, bc' (ix2 (n0 := 1) (n1 := N') 0 (ι c)) = bc (ix2 (n0 := 1) (n1 := N) 0 c))
    (r : Fin R) (c : Fin N) :
    logits P U Fq' Wg' bg' Wr' br' Wc' bc' (ix2 (n0 := R) (n1 := N') r (ι c))
      = logits P U Fq Wg bg Wr br Wc bc (ix2 (n0 := R) (n1 := N) r c) := by
  have hg : ∀ (h : Fin H), gated P U Wg' bg' (ix2 (n0 := R) (n1 := H) r h) = gated P U Wg bg (ix2 (n0 := R) (n1 := H) r h) :=
    fun h => congrArg₂ (fun a b => (a + b) * U (ix2 (n0 := R) (n1 := H) r h))
      (Finset.sum_congr rfl fun k _ => congrArg (fun a => P (ix2 (n0 := R) (n1 := K) r k) * a) (hWg k h)) (hbg h)
  have h1 : rowsByCols (gated P U Wg' bg') Wr' (ix2 (n0 := R) (n1 := N') r (ι c))
      = rowsByCols (gated P U Wg bg) Wr (ix2 (n0 := R) (n1 := N) r c) :=
    Finset.sum_congr rfl fun h _ => congrArg₂ (fun a b => a * b) (hg h) (hWr h c)
  have h2 : rowsByCols P Wc' (ix2 (n0 := R) (n1 := N') r (ι c)) = rowsByCols P Wc (ix2 (n0 := R) (n1 := N) r c) :=
    Finset.sum_congr rfl fun k _ => congrArg (fun a => P (ix2 (n0 := R) (n1 := K) r k) * a) (hWc k c)
  exact congrArg₂ (· + ·)
    (congrArg₂ (· + ·) (congrArg₂ (· + ·) h1 (hbr c)) (congrArg₂ (· + ·) h2 (hbc c))) (hF r c)

end Cert.RelLogits

end
-- ==== Proof.PointLogits.lean ====
/-
  The body's arithmetic at one grid point is the relation logits of the point's rows.

  At a point the body holds 256 rows of the pair representation `x0`, of the union features `x10` and of the padded
  frequency bias `x28`, and the whole of the three weight arrays and the three bias rows. Its three matrix products go
  into zero accumulators with the plain dimension numbers, so each is a product rows by columns; a bias row is
  broadcast down the 256 rows; rounding to a narrower float format is the identity on the extended reals. What it
  stores is therefore `logits` of those arrays, with 256 rows and 128 classes.
-/
import proofs.«173849_j68040871903599_1_alg».proof.Proof.Gen.KernelIdeal.Skeleton
import proofs.«173849_j68040871903599_1_alg».proof.Proof.RelLogits
import Idealize.ShloMosaic.Lib.Pipeline.Value
import Idealize.ShloMosaic.Lib.ValueLayout
import Idealize.ShloMosaic.PureOps.Ideal

noncomputable section

namespace Cert.KernelIdeal.PointLogits

open Cert.KernelIdeal Cert.KernelIdeal.Gen Idealize.ShloMosaic Idealize.ShloMosaic.ValueIdx
open Idealize.ShloMosaic.PlainProduct Cert.RelLogits

/-- The three products contract the left operand's columns with the right operand's rows. -/
theorem dims_gate : dot_S256x1024_S1024x4096_S256x4096_1_0_0_1_n_n = DotDims.plain 256 1024 4096 := rfl
theorem dims_rel : dot_S256x4096_S4096x128_S256x128_1_0_0_1_n_n = DotDims.plain 256 4096 128 := rfl
theorem dims_ctx : dot_S256x1024_S1024x128_S256x128_1_0_0_1_n_n = DotDims.plain 256 1024 128 := rfl

/-- A product into the zero accumulator whose left operand was first rounded to a narrower format is, on the
    extended reals, the product rows by columns of the unrounded operand. -/
theorem product_eq {M K N : Nat} (D : DotDims ⟨2, ![M, K]⟩ ⟨2, ![K, N]⟩ ⟨2, ![M, N]⟩) (hD : D = DotDims.plain M K N)
    (x : FVec Ideal ⟨2, ![M, K]⟩ .f32) (w : FVec Ideal ⟨2, ![K, N]⟩ .bf16) (hb : FTy.bf16.bits < FTy.f32.bits) :
    matmul D none (truncf .bf16 x hb) w (constant ⟨2, ![M, N]⟩ .f32 0x00000000#32) = rowsByCols x w := by
  subst hD
  exact matmul_zero_plain none (truncf .bf16 x hb) w

/-- What the body stores at a point, as `logits` of what it loaded. -/
theorem payload_eq (x0 : Vec Ideal S256x1024 .f32) (x3 : Vec Ideal S1024x4096 .bf16) (x6 : Vec Ideal S1x4096 .f32)
    (x10 : Vec Ideal S256x4096 .f32) (x13 : Vec Ideal S4096x128 .bf16) (x16 : Vec Ideal S1x128 .f32)
    (x20 : Vec Ideal S1024x128 .bf16) (x23 : Vec Ideal S1x128 .f32) (x28 : Vec Ideal S256x128 .f32) :
    k0_pay1 (F := Ideal) x0 x3 x6 x10 x13 x16 x20 x23 x28
      = logits (R := 256) (K := 1024) (H := 4096) (N := 128) (φg := .bf16) (φr := .bf16) (φc := .bf16)
          x0 x10 x28 x3 x6 x13 x16 x20 x23 := by
  unfold k0_pay1
  dsimp only
  simp only [shapeCast_self]
  rw [product_eq _ dims_gate, product_eq _ dims_ctx]
  have hg : mulf (addf (rowsByCols (φ₁ := .f32) (M := 256) (K := 1024) (N := 4096) (φ₂ := .bf16) x0 x3)
        (broadcastTo S256x4096 x6 broadcasts_S1x4096_S256x4096)) x10
      = gated (R := 256) (K := 1024) (H := 4096) (φg := .bf16) x0 x10 x3 x6 := by
    funext i
    obtain ⟨p, h, rfl⟩ : ∃ (p : Fin 256) (h : Fin 4096), i = ix2 p h := ⟨i 0, i 1, eq_ix2 i⟩
    exact congrArg (fun a => (rowsByCols (φ₁ := .f32) (M := 256) (K := 1024) (N := 4096) (φ₂ := .bf16) x0 x3 (ix2 p h) + a) * x10 (ix2 p h))
      (broadcastTo_1b_ab_apply x6 broadcasts_S1x4096_S256x4096 p h)
  rw [hg, product_eq _ dims_rel]
  funext j
  obtain ⟨p, q, rfl⟩ : ∃ (p : Fin 256) (q : Fin 128), j = ix2 p q := ⟨j 0, j 1, eq_ix2 j⟩
  exact congrArg₂
    (fun a b => ((rowsByCols (φ₁ := .f32) (M := 256) (K := 4096) (N := 128) (φ₂ := .bf16)
        (gated (R := 256) (K := 1024) (H := 4096) (φg := .bf16) x0 x10 x3 x6) x13 (ix2 p q) + a)
      + (rowsByCols (φ₁ := .f32) (M := 256) (K := 1024) (N := 128) (φ₂ := .bf16) x0 x20 (ix2 p q) + b)) + x28 (ix2 p q))
    (broadcastTo_1b_ab_apply x16 broadcasts_S1x128_S256x128 p q)
    (broadcastTo_1b_ab_apply x23 broadcasts_S1x128_S256x128 p q)

end Cert.KernelIdeal.PointLogits

end
-- ==== Proof.WholeArray.lean ====
/-
  The array the kernel leaves, and what the program returns.

  At point `t` the body stores the logits of the point's rows (256 rows, 128 classes). Those rows are rows
  `256·t …` of the arrays, so by the row law the stored block is rows `256·t …` of ONE array: the logits, with 128
  classes, of the arrays the region found. The 64 blocks cover the result, so that array is what the region leaves.
  After the region the host keeps the first 51 classes.
-/
import proofs.«173849_j68040871903599_1_alg».proof.Proof.Gen.KernelIdeal.Frame
import proofs.«173849_j68040871903599_1_alg».proof.Proof.BlockReads
import proofs.«173849_j68040871903599_1_alg».proof.Proof.PointLogits
import proofs.«173849_j68040871903599_1_alg».proof.Proof.RelLogits
import Idealize.ShloMosaic.Lib.Pipeline.Value
import Idealize.ShloMosaic.Lib.StableHlo.Run
import Idealize.ShloMosaic.PureOps.Ideal

noncomputable section

namespace Cert.KernelIdeal.Whole

open Cert.KernelIdeal Cert.KernelIdeal.Gen Cert.KernelIdeal.Blocks Cert.KernelIdeal.PointLogits Cert.RelLogits
open Idealize.ShloMosaic Idealize.ShloMosaic.TcCoe Idealize.ShloMosaic.ValueIdx Idealize.SL.Sem
open Idealize.ShloMosaic.StableHlo
open Idealize.ShloMosaic.Pipeline (Dat Cfg Window)

variable (m : (ℓ : Loc nD τ sig) → Buf (Elt Ideal) ℓ) (ρ : Dev nD → PrngReg)

/-- The logits, with the class axis padded to 128, of the arrays the region finds. -/
def padded (c : Dev nD) : S16384x128.Idx → EReal :=
  logits (R := 16384) (K := 1024) (H := 4096) (N := 128) (φg := .bf16) (φr := .bf16) (φc := .bf16)
    (V m c main_v25) (V m c main_arg3) (V m c main_v47) (V m c main_v49) (V m c main_v56) (V m c main_v52)
    (V m c main_v58) (V m c main_v55) (V m c main_v60)

/-- What point `t` writes back is block `t` of the padded logits. -/
theorem flushed_eq (c : Dev nD) (t : Fin cfg0.N) :
    (dats m 0 c).flushed 9 t = ((cfg0.win 9).blk t).view.read (Elt Ideal) (padded m c) := by
  show (cfg0.win 9).cut (grid0.coords t) ((dats m 0 c).after 9 t) = _
  rw [after0_9, rows0 m c t, rows1 m c t, rows2 m c t, whole3 m c t, whole4 m c t, whole5 m c t, whole6 m c t,
    whole7 m c t, whole8 m c t]
  unfold out0_9
  rw [View.canon_unit_zero origin]
  simp only [View.ld_unit_zero (S := S256x1024) origin,
    View.ld_unit_zero (S := S1024x4096) origin,
    View.ld_unit_zero (S := S1x4096) origin,
    View.ld_unit_zero (S := S256x4096) origin,
    View.ld_unit_zero (S := S4096x128) origin,
    View.ld_unit_zero (S := S1x128) origin,
    View.ld_unit_zero (S := S1024x128) origin,
    View.ld_unit_zero (S := S256x128) origin]
  rw [payload_eq]
  refine (congrArg ((cfg0.win 9).cut (grid0.coords t))
    (logits_rows_fun (φg := .bf16) (φr := .bf16) (φc := .bf16) (rowOf t) (V m c main_v25) (V m c main_arg3)
      (V m c main_v47) (V m c main_v49) (V m c main_v56) (V m c main_v52) (V m c main_v58) (V m c main_v55)
      (V m c main_v60))).trans ?_
  obtain ⟨e0, e1⟩ := idx9 t
  funext y
  show padded m c (ix2 (n0 := 16384) (n1 := 128) (rowOf t (y 0)) (y 1)) = padded m c (((cfg0.win 9).blk t).view.emb y)
  refine congrArg (padded m c) ?_
  funext a; apply Fin.ext
  match a with
  | ⟨0, _⟩ => show t.val * 256 + (y 0).val = win0_9.index t (0 : Fin 2) * 256 + 1 * (y 0).val; rw [e0]; omega
  | ⟨1, _⟩ => show (y 1).val = win0_9.index t (1 : Fin 2) * 128 + 1 * (y 1).val; rw [e1]; omega

/-- The region leaves the padded logits in its result array. -/
theorem final (c : Dev nD) : (dats m 0 c).arrAt 9 cfg0.N = padded m c :=
  (dats m 0 c).arrAt_eq_of_cover 9 (padded m c) (fun t _ => flushed_eq m c t) cover

/-- What the program returns: the first 51 classes of the padded logits. -/
def result (c : Dev nD) : S16384x51.Idx → EReal :=
  extractStridedSlice S16384x51 ![0, 0] (padded m c) slices_S16384x128_S16384x51_0_0

/-- The host's one operation after the region cuts the region's array down to 51 classes. -/
theorem tail_eq (c : Dev nD) :
    (Pipeline.afterTail₀ cfgs (dats m) 0 (V0 m) [hostOps1] c main_v62 : S16384x51.Idx → EReal) = result m c := by
  unfold Pipeline.afterTail₀
  show StableHlo.after hostOps1 _ (Proc.devRef .tc main_v62) = _
  after_results
  have hA : (Pipeline.withArrays (cfgs 0).spec c (V0 m c) (fun w => (dats m 0 c).arrAt w (cfgs 0).N)
      (Proc.devRef .tc main_v61) : S16384x128.Idx → EReal) = padded m c :=
    (Pipeline.withArrays_arr spec0 launch0.win.arr_inj c (V0 m c) (fun w => (dats m 0 c).arrAt w cfg0.N) 9).trans
      (final m c)
  exact congrArg (fun x : S16384x128.Idx → EReal =>
    extractStridedSlice S16384x51 ![0, 0] x slices_S16384x128_S16384x51_0_0) hA

/-- Every weakly fair execution ends with the result at `result` and the arguments as launched. -/
theorem run : θ_run defs (onTc (τ := τ) (main (F := Ideal))) ⟨m, fun _ => 0, ρ⟩ (fun r => ∀ c : Dev nD,
      r.2.mem ((c.tc : Thread nD τ).loc main_v62) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c =>
    ⟨((h c).2 main_v62 (Pipeline.mem_restRefs_of main_v62 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 1).trans (((dats m 0 c).arrAt_in 1 rfl _).trans ((A_eq m c 1).trans (V_main_arg3 m c))),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c),
      ((h c).2 main_arg11 (Pipeline.mem_restRefs_of main_arg11 (by decide) (by decide))).trans (W_main_arg11 m (dats m) c),
      ((h c).2 main_arg12 (Pipeline.mem_restRefs_of main_arg12 (by decide) (by decide))).trans (W_main_arg12 m (dats m) c)⟩)
    (run_main m ρ)

end Cert.KernelIdeal.Whole

end
-- ==== Proof.EntryRows.lean ====
/-
  What the region finds in its two row-indexed operands that the host computes: the pair representation and the
  padded frequency bias.

  Before the region the host gathers, for every pair, the head half of one object's embedding and the tail half of
  another's and joins them; and it gathers one row of the frequency table per pair, which it then pads from 51 to 128
  classes. The reference computes the same two gathers by the same operations of the same arguments, so each is
  stated here as the reference's own stage of the launch contents, and neither chain of operations is ever opened.
-/
import proofs.«173849_j68040871903599_1_alg».proof.Proof.Gen.KernelIdeal.Frame
import proofs.«173849_j68040871903599_1_alg».proof.Proof.Gen.ReferenceIdeal.Read
import Idealize.ShloMosaic.Lib.StableHlo.Run
import Idealize.ShloMosaic.PureOps.Ideal

noncomputable section

namespace Cert.KernelIdeal.Entry

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

/-- The pair representation is the reference's, of the same arguments. -/
theorem pairRep (c : Dev nD) :
    (V m c main_v25 : S16384x1024.Idx → EReal)
      = Cert.ReferenceIdeal.Read.val_main_v25 (F := Ideal) (m ((c.tc : Thread nD τ).loc main_arg0)) (m ((c.tc : Thread nD τ).loc main_arg1)) (m ((c.tc : Thread nD τ).loc main_arg4)) (m ((c.tc : Thread nD τ).loc main_arg5)) := by
  dsimp only [V, V0]
  simp only [hostOps0, hostOps0_1, hostOps0_2, hostOps0_3, hostOps0_4, hostOps0_5, hostOps0_6, hostOps0_7, hostOps0_8, hostOps0_9,
    hostOps0_10, List.flatten_cons, List.flatten_nil, List.append_nil, List.cons_append, List.nil_append]
  after_results_simp
  rfl

/-- The padded frequency bias is the reference's frequency bias, padded on the class axis from 51 to 128 with some
    value `z`. -/
theorem freqPadded (c : Dev nD) : ∃ z : S_.Idx → EReal,
    (V m c main_v47 : S16384x128.Idx → EReal)
      = pad S16384x128 ![0, 0] ![0, 77] ![0, 0]
          (Cert.ReferenceIdeal.Read.val_main_v63 (F := Ideal) (m ((c.tc : Thread nD τ).loc main_arg1)) (m ((c.tc : Thread nD τ).loc main_arg2)) (m ((c.tc : Thread nD τ).loc main_arg12)))
          z pads_S16384x51_S16384x128_000_0770 h_S_ := by
  apply Exists.intro
  dsimp only [V, V0]
  simp only [hostOps0, hostOps0_1, hostOps0_2, hostOps0_3, hostOps0_4, hostOps0_5, hostOps0_6, hostOps0_7, hostOps0_8, hostOps0_9,
    hostOps0_10, List.flatten_cons, List.flatten_nil, List.append_nil, List.cons_append, List.nil_append]
  after_results_simp
  rfl

end Cert.KernelIdeal.Entry

end
-- ==== Proof.EntryWeights.lean ====
/-
  What the region finds in its three weight operands: each weight transposed, the two with a class axis padded on it
  from 51 to 128, and all three rounded to a narrower format (the identity on the extended reals).

  The transposes are stated as the reference's own stages, which are the same transposes of the same arguments.
-/
import proofs.«173849_j68040871903599_1_alg».proof.Proof.Gen.KernelIdeal.Frame
import proofs.«173849_j68040871903599_1_alg».proof.Proof.Gen.ReferenceIdeal.Read
import Idealize.ShloMosaic.Lib.StableHlo.Run
import Idealize.ShloMosaic.PureOps.Ideal

noncomputable section

namespace Cert.KernelIdeal.Entry

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

/-- The gate weight: the reference's transpose, rounded. -/
theorem gateWeight (c : Dev nD) :
    (V m c main_v49 : S1024x4096.Idx → EReal)
      = truncf (F := Ideal) .bf16 (Cert.ReferenceIdeal.Read.val_main_v26 (F := Ideal) (m ((c.tc : Thread nD τ).loc main_arg6))) bitsLt_bf16_f32 := by
  dsimp only [V, V0]
  simp only [hostOps0, hostOps0_1, hostOps0_2, hostOps0_3, hostOps0_4, hostOps0_5, hostOps0_6, hostOps0_7, hostOps0_8, hostOps0_9,
    hostOps0_10, List.flatten_cons, List.flatten_nil, List.append_nil, List.cons_append, List.nil_append]
  after_results_simp
  rfl

/-- The relation weight: the reference's transpose, padded on the class axis with some value `z`, rounded. -/
theorem relWeight (c : Dev nD) : ∃ z : S_.Idx → EReal,
    (V m c main_v52 : S4096x128.Idx → EReal)
      = truncf (F := Ideal) .bf16 (pad S4096x128 ![0, 0] ![0, 77] ![0, 0] (Cert.ReferenceIdeal.Read.val_main_v32 (F := Ideal) (m ((c.tc : Thread nD τ).loc main_arg8)))
          z pads_S4096x51_S4096x128_000_0770 h_S_) bitsLt_bf16_f32 := by
  apply Exists.intro
  dsimp only [V, V0]
  simp only [hostOps0, hostOps0_1, hostOps0_2, hostOps0_3, hostOps0_4, hostOps0_5, hostOps0_6, hostOps0_7, hostOps0_8, hostOps0_9,
    hostOps0_10, List.flatten_cons, List.flatten_nil, List.append_nil, List.cons_append, List.nil_append]
  after_results_simp
  rfl

/-- The context weight: the reference's transpose, padded on the class axis with some value `z`, rounded. -/
theorem ctxWeight (c : Dev nD) : ∃ z : S_.Idx → EReal,
    (V m c main_v55 : S1024x128.Idx → EReal)
      = truncf (F := Ideal) .bf16 (pad S1024x128 ![0, 0] ![0, 77] ![0, 0] (Cert.ReferenceIdeal.Read.val_main_v37 (F := Ideal) (m ((c.tc : Thread nD τ).loc main_arg10)))
          z pads_S1024x51_S1024x128_000_0770 h_S_) bitsLt_bf16_f32 := by
  apply Exists.intro
  dsimp only [V, V0]
  simp only [hostOps0, hostOps0_1, hostOps0_2, hostOps0_3, hostOps0_4, hostOps0_5, hostOps0_6, hostOps0_7, hostOps0_8, hostOps0_9,
    hostOps0_10, List.flatten_cons, List.flatten_nil, List.append_nil, List.cons_append, List.nil_append]
  after_results_simp
  rfl

end Cert.KernelIdeal.Entry

end
-- ==== Proof.EntryBiases.lean ====
/-
  What the region finds in its three bias operands: each bias vector laid out as one row, the two with a class axis
  first padded on it from 51 to 128.
-/
import proofs.«173849_j68040871903599_1_alg».proof.Proof.Gen.KernelIdeal.Frame
import proofs.«173849_j68040871903599_1_alg».proof.Proof.Gen.ReferenceIdeal.Read
import Idealize.ShloMosaic.Lib.StableHlo.Run
import Idealize.ShloMosaic.PureOps.Ideal

noncomputable section

namespace Cert.KernelIdeal.Entry

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

/-- The gate bias as one row. -/
theorem gateBias (c : Dev nD) :
    (V m c main_v56 : S1x4096.Idx → EReal) = shapeCast S1x4096 (m ((c.tc : Thread nD τ).loc main_arg7)) shapeCasts_S4096_S1x4096 := by
  dsimp only [V, V0]
  simp only [hostOps0, hostOps0_1, hostOps0_2, hostOps0_3, hostOps0_4, hostOps0_5, hostOps0_6, hostOps0_7, hostOps0_8, hostOps0_9,
    hostOps0_10, List.flatten_cons, List.flatten_nil, List.append_nil, List.cons_append, List.nil_append]
  after_results_simp
  rfl

/-- The relation bias, padded with some value `z`, as one row. -/
theorem relBias (c : Dev nD) : ∃ z : S_.Idx → EReal,
    (V m c main_v58 : S1x128.Idx → EReal)
      = shapeCast S1x128 (pad S128 ![0] ![77] ![0] (m ((c.tc : Thread nD τ).loc main_arg9)) z pads_S51_S128_0770 h_S_) shapeCasts_S128_S1x128 := by
  apply Exists.intro
  dsimp only [V, V0]
  simp only [hostOps0, hostOps0_1, hostOps0_2, hostOps0_3, hostOps0_4, hostOps0_5, hostOps0_6, hostOps0_7, hostOps0_8, hostOps0_9,
    hostOps0_10, List.flatten_cons, List.flatten_nil, List.append_nil, List.cons_append, List.nil_append]
  after_results_simp
  rfl

/-- The context bias, padded with some value `z`, as one row. -/
theorem ctxBias (c : Dev nD) : ∃ z : S_.Idx → EReal,
    (V m c main_v60 : S1x128.Idx → EReal)
      = shapeCast S1x128 (pad S128 ![0] ![77] ![0] (m ((c.tc : Thread nD τ).loc main_arg11)) z pads_S51_S128_0770 h_S_) shapeCasts_S128_S1x128 := by
  apply Exists.intro
  dsimp only [V, V0]
  simp only [hostOps0, hostOps0_1, hostOps0_2, hostOps0_3, hostOps0_4, hostOps0_5, hostOps0_6, hostOps0_7, hostOps0_8, hostOps0_9,
    hostOps0_10, List.flatten_cons, List.flatten_nil, List.append_nil, List.cons_append, List.nil_append]
  after_results_simp
  rfl

end Cert.KernelIdeal.Entry

end
-- ==== Proof.RefLogits.lean ====
/-
  The reference computes the relation logits of its own intermediate arrays.

  Reading the reference one operation at a time: its result at `(r, c)` is the sum of three terms — the gated
  features' product with the transposed relation weight plus the relation bias, the pair representation's product
  with the transposed context weight plus the context bias, and the frequency bias — where the gated features are the
  pair representation's product with the transposed gate weight plus the gate bias, times the union features. Each
  product is a sum over the contracted index, each bias is a vector laid out as one row and repeated down the rows.
  That is `logits`, with 51 classes, of the reference's pair representation, frequency bias, three transposes and
  three bias rows, none of which is opened here.
-/
import proofs.«173849_j68040871903599_1_alg».proof.Proof.Gen.ReferenceIdeal.Read
import proofs.«173849_j68040871903599_1_alg».proof.Proof.RelLogits
import Idealize.ShloMosaic.PureOps.Ideal

noncomputable section

namespace Cert.ReferenceIdeal.AsLogits

open Cert.ReferenceIdeal Cert.ReferenceIdeal.Gen Cert.ReferenceIdeal.Read Idealize.ShloMosaic Idealize.ShloMosaic.ValueIdx
open Idealize.ShloMosaic.PlainProduct Cert.RelLogits

/-! The operands' indices, as coordinates. -/

theorem gate_lhs (j : S16384x4096.Idx) (k : Fin 1024) : lidx_main_v27 j k = ix2 (n0 := 16384) (n1 := 1024) (j 0) k :=
  funext fun a => Fin.ext (by match a with | ⟨0, _⟩ => rfl | ⟨1, _⟩ => rfl)
theorem gate_rhs (j : S16384x4096.Idx) (k : Fin 1024) : ridx_main_v27 j k = ix2 (n0 := 1024) (n1 := 4096) k (j 1) :=
  funext fun a => Fin.ext (by match a with | ⟨0, _⟩ => rfl | ⟨1, _⟩ => rfl)
theorem gate_bias (j : S16384x4096.Idx) : idx_main_v29 j = ix2 (n0 := 1) (n1 := 4096) 0 (j 1) :=
  funext fun a => Fin.ext (by match a with | ⟨0, _⟩ => rfl | ⟨1, _⟩ => rfl)
theorem rel_lhs (i : S16384x51.Idx) (k : Fin 4096) : lidx_main_v33 i k = ix2 (n0 := 16384) (n1 := 4096) (i 0) k :=
  funext fun a => Fin.ext (by match a with | ⟨0, _⟩ => rfl | ⟨1, _⟩ => rfl)
theorem rel_rhs (i : S16384x51.Idx) (k : Fin 4096) : ridx_main_v33 i k = ix2 (n0 := 4096) (n1 := 51) k (i 1) :=
  funext fun a => Fin.ext (by match a with | ⟨0, _⟩ => rfl | ⟨1, _⟩ => rfl)
theorem rel_bias (i : S16384x51.Idx) : idx_main_v35 i = ix2 (n0 := 1) (n1 := 51) 0 (i 1) :=
  funext fun a => Fin.ext (by match a with | ⟨0, _⟩ => rfl | ⟨1, _⟩ => rfl)
theorem ctx_lhs (i : S16384x51.Idx) (k : Fin 1024) : lidx_main_v38 i k = ix2 (n0 := 16384) (n1 := 1024) (i 0) k :=
  funext fun a => Fin.ext (by match a with | ⟨0, _⟩ => rfl | ⟨1, _⟩ => rfl)
theorem ctx_rhs (i : S16384x51.Idx) (k : Fin 1024) : ridx_main_v38 i k = ix2 (n0 := 1024) (n1 := 51) k (i 1) :=
  funext fun a => Fin.ext (by match a with | ⟨0, _⟩ => rfl | ⟨1, _⟩ => rfl)
theorem ctx_bias (i : S16384x51.Idx) : idx_main_v40 i = ix2 (n0 := 1) (n1 := 51) 0 (i 1) :=
  funext fun a => Fin.ext (by match a with | ⟨0, _⟩ => rfl | ⟨1, _⟩ => rfl)

/-- The reference's result is the logits of its pair representation, the union features, its frequency bias, its three
    transposed weights and its three bias rows. -/
theorem result_eq (x0 : (⟨S1280x512, .f32⟩ : BufTy).Contents (Elt Ideal))
    (x1 : (⟨S16384x2, .i32⟩ : BufTy).Contents (Elt Ideal))
    (x2 : (⟨S1280, .i32⟩ : BufTy).Contents (Elt Ideal))
    (x3 : (⟨S16384x4096, .f32⟩ : BufTy).Contents (Elt Ideal))
    (x4 : (⟨S1024x512, .f32⟩ : BufTy).Contents (Elt Ideal))
    (x5 : (⟨S1024, .f32⟩ : BufTy).Contents (Elt Ideal))
    (x6 : (⟨S4096x1024, .f32⟩ : BufTy).Contents (Elt Ideal))
    (x7 : (⟨S4096, .f32⟩ : BufTy).Contents (Elt Ideal))
    (x8 : (⟨S51x4096, .f32⟩ : BufTy).Contents (Elt Ideal))
    (x9 : (⟨S51, .f32⟩ : BufTy).Contents (Elt Ideal))
    (x10 : (⟨S51x1024, .f32⟩ : BufTy).Contents (Elt Ideal))
    (x11 : (⟨S51, .f32⟩ : BufTy).Contents (Elt Ideal))
    (x12 : (⟨S22801x51, .f32⟩ : BufTy).Contents (Elt Ideal)) :
    val_main_v64 (F := Ideal) x0 x1 x2 x3 x4 x5 x6 x7 x8 x9 x10 x11 x12
      = logits (R := 16384) (K := 1024) (H := 4096) (N := 51) (φg := .f32) (φr := .f32) (φc := .f32)
          (val_main_v25 (F := Ideal) x0 x1 x4 x5) x3 (val_main_v63 (F := Ideal) x1 x2 x12)
          (val_main_v26 (F := Ideal) x6) (val_main_v28 (F := Ideal) x7)
          (val_main_v32 (F := Ideal) x8) (val_main_v34 (F := Ideal) x9)
          (val_main_v37 (F := Ideal) x10) (val_main_v39 (F := Ideal) x11) := by
  funext i
  simp only [val_main_v64_apply, val_main_v42_apply, val_main_v36_apply, val_main_v41_apply, val_main_v33_apply,
    val_main_v38_apply, val_main_v35_apply, val_main_v40_apply, val_main_v31_apply, val_main_v30_apply,
    val_main_v27_apply, val_main_v29_apply, gate_lhs, gate_rhs, gate_bias, rel_lhs, rel_rhs, rel_bias, ctx_lhs, ctx_rhs,
    ctx_bias]
  rfl

end Cert.ReferenceIdeal.AsLogits

end
-- ==== Proof.Bridge.lean ====
/-
  The kernel's result is the reference's.

  The kernel returns the first 51 classes of the padded logits; the reference returns the logits with 51 classes.
  Both are `logits` of the same pair representation, union features and gate weight and bias. The kernel's arrays
  with a class axis — the frequency bias, the relation and context weights and biases — are the reference's, padded on
  that axis from 51 to 128: along the first 51 classes they agree with the reference's entry by entry (an entry inside
  a padded array is the array's own; a vector laid out as one row is read at its column; rounding to a narrower format
  is the identity on the extended reals). By the column law the two logits agree on the first 51 classes, whatever
  the padding holds.
-/
import proofs.«173849_j68040871903599_1_alg».proof.Proof.WholeArray
import proofs.«173849_j68040871903599_1_alg».proof.Proof.EntryRows
import proofs.«173849_j68040871903599_1_alg».proof.Proof.EntryWeights
import proofs.«173849_j68040871903599_1_alg».proof.Proof.EntryBiases
import proofs.«173849_j68040871903599_1_alg».proof.Proof.RefLogits
import Idealize.ShloMosaic.Lib.KernelVsHost
import Idealize.ShloMosaic.Lib.ValueLayout

noncomputable section

namespace Cert.KernelIdeal.Bridge

open Cert.KernelIdeal Cert.KernelIdeal.Gen Cert.KernelIdeal.Whole Cert.KernelIdeal.Entry Cert.RelLogits
open Idealize.ShloMosaic Idealize.ShloMosaic.TcCoe Idealize.ShloMosaic.ValueIdx Idealize.SL.Sem

variable (m : (ℓ : Loc nD τ sig) → Buf (Elt Ideal) ℓ)

/-- The reference's 51 classes inside the padded 128. -/
def cls (q : Fin 51) : Fin 128 := ⟨q.val, by have := q.isLt; omega⟩

/-- A matrix padded on its class axis from 51 to 128 keeps its own entries on the first 51 classes. -/
theorem pad_cols {a : Nat} (x : (⟨2, ![a, 51]⟩ : Shape).Idx → EReal) (z : S_.Idx → EReal)
    (h : (⟨2, ![a, 51]⟩ : Shape).Pads ![0, 0] ![0, 77] ![0, 0] ⟨2, ![a, 128]⟩) (hu : 0 < S_.numel)
    (r : Fin a) (q : Fin 51) :
    pad ⟨2, ![a, 128]⟩ ![0, 0] ![0, 77] ![0, 0] x z h hu (ix2 (n0 := a) (n1 := 128) r (cls q))
      = x (ix2 (n0 := a) (n1 := 51) r q) :=
  pad_apply_of_inside _ _ _ x z h hu _ _ fun ax => by
    match ax with
    | ⟨0, _⟩ => show r.val = 0 + r.val * (0 + 1); omega
    | ⟨1, _⟩ => show q.val = 0 + q.val * (0 + 1); omega

/-- A vector padded from 51 to 128 keeps its own entries on the first 51 positions. -/
theorem pad_vec (x : (⟨1, ![51]⟩ : Shape).Idx → EReal) (z : S_.Idx → EReal)
    (h : (⟨1, ![51]⟩ : Shape).Pads ![0] ![77] ![0] ⟨1, ![128]⟩) (hu : 0 < S_.numel) (q : Fin 51) :
    pad ⟨1, ![128]⟩ ![0] ![77] ![0] x z h hu (ix1 (n := 128) (cls q)) = x (ix1 (n := 51) q) :=
  pad_apply_of_inside _ _ _ x z h hu _ _ fun ax => by
    match ax with
    | ⟨0, _⟩ => show q.val = 0 + q.val * (0 + 1); omega

/-- The reference lays a bias vector out as one row by a broadcast: the row at column `h` is the vector at `h`. -/
theorem ref_gate_bias (x7 : (⟨Cert.ReferenceIdeal.S4096, .f32⟩ : BufTy).Contents (Elt Ideal)) (h : Fin 4096) :
    Cert.ReferenceIdeal.Read.val_main_v28 (F := Ideal) x7 (ix2 (n0 := 1) (n1 := 4096) 0 h) = x7 (ix1 (n := 4096) h) :=
  (Cert.ReferenceIdeal.Read.val_main_v28_apply x7 _).trans
    (congrArg x7 (funext fun a => Fin.ext (by match a with | ⟨0, _⟩ => rfl)))
theorem ref_rel_bias (x9 : (⟨Cert.ReferenceIdeal.S51, .f32⟩ : BufTy).Contents (Elt Ideal)) (q : Fin 51) :
    Cert.ReferenceIdeal.Read.val_main_v34 (F := Ideal) x9 (ix2 (n0 := 1) (n1 := 51) 0 q) = x9 (ix1 (n := 51) q) :=
  (Cert.ReferenceIdeal.Read.val_main_v34_apply x9 _).trans
    (congrArg x9 (funext fun a => Fin.ext (by match a with | ⟨0, _⟩ => rfl)))
theorem ref_ctx_bias (x11 : (⟨Cert.ReferenceIdeal.S51, .f32⟩ : BufTy).Contents (Elt Ideal)) (q : Fin 51) :
    Cert.ReferenceIdeal.Read.val_main_v39 (F := Ideal) x11 (ix2 (n0 := 1) (n1 := 51) 0 q) = x11 (ix1 (n := 51) q) :=
  (Cert.ReferenceIdeal.Read.val_main_v39_apply x11 _).trans
    (congrArg x11 (funext fun a => Fin.ext (by match a with | ⟨0, _⟩ => rfl)))

/-- What the kernel's program returns is the reference's result of the same arguments. -/
theorem result_eq (c : Dev nD) :
    result m c = Cert.ReferenceIdeal.Read.val_main_v64 (F := Ideal) (m ((c.tc : Thread nD τ).loc main_arg0))
      (m ((c.tc : Thread nD τ).loc main_arg1))
      (m ((c.tc : Thread nD τ).loc main_arg2))
      (m ((c.tc : Thread nD τ).loc main_arg3))
      (m ((c.tc : Thread nD τ).loc main_arg4))
      (m ((c.tc : Thread nD τ).loc main_arg5))
      (m ((c.tc : Thread nD τ).loc main_arg6))
      (m ((c.tc : Thread nD τ).loc main_arg7))
      (m ((c.tc : Thread nD τ).loc main_arg8))
      (m ((c.tc : Thread nD τ).loc main_arg9))
      (m ((c.tc : Thread nD τ).loc main_arg10))
      (m ((c.tc : Thread nD τ).loc main_arg11))
      (m ((c.tc : Thread nD τ).loc main_arg12)) := by
  obtain ⟨zF, hF⟩ := freqPadded m c
  obtain ⟨zr, hWr⟩ := relWeight m c
  obtain ⟨zc, hWc⟩ := ctxWeight m c
  obtain ⟨zbr, hbr⟩ := relBias m c
  obtain ⟨zbc, hbc⟩ := ctxBias m c
  rw [Cert.ReferenceIdeal.AsLogits.result_eq]
  funext i
  obtain ⟨r, q, rfl⟩ : ∃ (r : Fin 16384) (q : Fin 51), i = ix2 r q := ⟨i 0, i 1, eq_ix2 i⟩
  unfold result
  refine (slice2_axis1_apply 0 (padded m c) slices_S16384x128_S16384x51_0_0 r q (cls q) (Nat.zero_add _).symm).trans ?_
  unfold padded
  rw [pairRep m c, V_main_arg3 m c, hF, gateWeight m c, gateBias m c, hWr, hbr, hWc, hbc]
  refine logits_cols (R := 16384) (K := 1024) (H := 4096) (N := 51) (N' := 128) cls _ _ _ _ _ _ _ _ _ _ _ _ _ _ _ _
    ?_ ?_ ?_ ?_ ?_ ?_ ?_ r q
  · exact fun r q => pad_cols (Cert.ReferenceIdeal.Read.val_main_v63 (F := Ideal) (m ((c.tc : Thread nD τ).loc main_arg1)) (m ((c.tc : Thread nD τ).loc main_arg2)) (m ((c.tc : Thread nD τ).loc main_arg12))) zF
      pads_S16384x51_S16384x128_000_0770 h_S_ r q
  · exact fun _ _ => rfl
  · exact fun h => (shapeCast_a_1a_apply (m ((c.tc : Thread nD τ).loc main_arg7)) _ 0 h).trans (ref_gate_bias (m ((c.tc : Thread nD τ).loc main_arg7)) h).symm
  · exact fun h q => pad_cols (Cert.ReferenceIdeal.Read.val_main_v32 (F := Ideal) (m ((c.tc : Thread nD τ).loc main_arg8))) zr
      pads_S4096x51_S4096x128_000_0770 h_S_ h q
  · exact fun q => (shapeCast_a_1a_apply _ _ 0 (cls q)).trans
      ((pad_vec (m ((c.tc : Thread nD τ).loc main_arg9)) zbr _ _ q).trans (ref_rel_bias (m ((c.tc : Thread nD τ).loc main_arg9)) q).symm)
  · exact fun k q => pad_cols (Cert.ReferenceIdeal.Read.val_main_v37 (F := Ideal) (m ((c.tc : Thread nD τ).loc main_arg10))) zc
      pads_S1024x51_S1024x128_000_0770 h_S_ k q
  · exact fun q => (shapeCast_a_1a_apply _ _ 0 (cls q)).trans
      ((pad_vec (m ((c.tc : Thread nD τ).loc main_arg11)) zbc _ _ q).trans (ref_ctx_bias (m ((c.tc : Thread nD τ).loc main_arg11)) q).symm)

end Cert.KernelIdeal.Bridge

end
-- ==== Proof.lean ====
/-
  Logits of 16384 pairs over 51 classes: a kernel tiled over the pairs against its plain reference. (The arrays are
  called what the two programs' sources call them.)

  Both programs first compute, on the host and by the same operations, a pair representation `P` (for each of 16384
  pairs, the head half of one object's embedding joined to the tail half of another's) and a frequency bias `Fq` (one
  row of a table per pair). From these, the union features `U` and three weight matrices with their biases, both
  compute

      ((P · Wgᵀ + bg) ⊙ U) · Wrᵀ + br  +  (P · Wcᵀ + bc)  +  Fq        (16384 pairs × 51 classes),

  with the same grouping of the three outer terms. The reference does it on whole arrays. The kernel transposes the
  weights beforehand, pads every array that has a class axis from 51 to 128 classes, computes 256 pairs at each of 64
  grid points, and cuts the 128 classes back to 51 at the end.

  On the extended reals a change of float format is the identity and a matrix product — into a zero accumulator on the
  matrix unit, or on the host — is the sum over the contracted index. Two facts then join the two sides, and neither
  needs the inputs to be finite (no factor is moved across a sum and nothing is cancelled):

  * rows: entry `(r, c)` of the logits reads row `r` of `P`, `U`, `Fq` only, so the 64 blocks of 256 rows the kernel
    writes are the blocks of ONE array, the logits of the whole arrays (Proof/RelLogits.lean `logits_rows`,
    Proof/WholeArray.lean);
  * columns: entry `(r, c)` reads column `c` of the arrays with a class axis only, so the padding never enters a
    class `c < 51`, and cutting it away leaves the unpadded logits (Proof/RelLogits.lean `logits_cols`,
    Proof/Bridge.lean).

  The reference's result is the same function of its own intermediate arrays (Proof/RefLogits.lean), and the kernel's
  pair representation and frequency bias are the reference's (Proof/EntryRows.lean). The kernel's idealization rewrote
  nothing, so there is nothing to preserve.
-/
import proofs.«173849_j68040871903599_1_alg».proof.Defs
import proofs.«173849_j68040871903599_1_alg».proof.Proof.Gen.Kernel
import proofs.«173849_j68040871903599_1_alg».proof.Proof.Gen.Kernel.Frame
import proofs.«173849_j68040871903599_1_alg».proof.Proof.Gen.KernelIdeal
import proofs.«173849_j68040871903599_1_alg».proof.Proof.Gen.KernelIdeal.Frame
import proofs.«173849_j68040871903599_1_alg».proof.Proof.Gen.ReferenceIdeal
import proofs.«173849_j68040871903599_1_alg».proof.Proof.Gen.ReferenceIdeal.Run
import proofs.«173849_j68040871903599_1_alg».proof.Proof.Gen.ReferenceIdeal.Read
import proofs.«173849_j68040871903599_1_alg».proof.Proof.Gen.Pre_finite_inputs
import proofs.«173849_j68040871903599_1_alg».proof.Proof.WholeArray
import proofs.«173849_j68040871903599_1_alg».proof.Proof.Bridge
import Idealize.ShloMosaic.Adequacy
import Idealize.ShloMosaic.Init

noncomputable section

namespace Cert.Proof

open Idealize.ShloMosaic Idealize.SL.Sem

/-- The kernel as printed runs to the end without a fault and leaves its arguments alone. -/
theorem frame_kernel : Cert.frame_Kernel := fun m ρ _ => Cert.Kernel.Gen.frame m ρ

/-- So does the kernel read on the extended reals. -/
theorem frame_ideal : Cert.frame_KernelIdeal := fun m ρ _ => Cert.KernelIdeal.Gen.frame m ρ

/-- So does the reference: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Reading the kernel on the extended reals rewrote no operation. -/
theorem preserves : Cert.preserves_Kernel_KernelIdeal := trivial

/-- From memories that agree on the arguments both programs end with the same logits: the kernel's first 51 classes of
    its padded logits are the reference's result of the same arguments. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12⟩ := hagree c
  show _ = Cert.KernelIdeal.Whole.result m c
  rw [Cert.ReferenceIdeal.Read.val_main_v64_eq, Cert.KernelIdeal.Bridge.result_eq m c,
    h0, h1, h2, h3, h4, h5, h6, h7, h8, h9, h10, h11, h12]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
